-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v205)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x512 : Shape := ⟨2, ![512, 512]⟩
abbrev S512 : Shape := ⟨1, ![512]⟩
abbrev S512x40 : Shape := ⟨2, ![512, 40]⟩
abbrev S40 : Shape := ⟨1, ![40]⟩
abbrev S2x1600000 : Shape := ⟨2, ![2, 1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S512x40 1) : IVec S_ 1 :=
  let main_c_5 : IVec S_ 1 := constantI S_ 1 1#1
  let main_v17 : IVec S_ 1 := (fun x v => Host.reduce IntOp.andi x v reducesTo_S512x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : FVec F S512x512 .f32) (main_arg2 : FVec F S512 .f32) (main_arg3 : FVec F S512x40 .f32) (main_arg4 : FVec F S40 .f32) (main_arg5 : IVec S2x1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x40 .f32 := Host.absf main_arg3
  let main_cst_4 : FVec F S_ .f32 := constant S_ .f32 0x7F800000#32
  let main_v15 : FVec F S512x40 .f32 := broadcastInDim S512x40 ![] bcast_S_S512x40 main_cst_4
  let main_v16 : IVec S512x40 1 := cmpf .olt main_v14 main_v15
  fn_part1 (F := F) main_arg4 main_v13 main_v16
-- ==== Kernel.lean ====
abbrev S100000x512 : Shape := ⟨2, ![100000, 512]⟩
abbrev S512x512 : Shape := ⟨2, ![512, 512]⟩
abbrev S512 : Shape := ⟨1, ![512]⟩
abbrev S512x40 : Shape := ⟨2, ![512, 40]⟩
abbrev S40 : Shape := ⟨1, ![40]⟩
abbrev S2x1600000 : Shape := ⟨2, ![2, 1600000]⟩
abbrev S1x512 : Shape := ⟨2, ![1, 512]⟩
abbrev S1x40 : Shape := ⟨2, ![1, 40]⟩
abbrev S100000x40 : Shape := ⟨2, ![100000, 40]⟩
abbrev S2000x512 : Shape := ⟨2, ![2000, 512]⟩
abbrev S2000x40 : Shape := ⟨2, ![2000, 40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x40 : Shape := ⟨2, ![1700000, 40]⟩

abbrev nBuf : Space → Nat
  | .hbm => 273
  | .vmem => 8
  | .smem => 0
  | _ => 0

abbrev hbmTy0_0 (i : Nat) : BufTy := match i % 128 with
  | 0 => ⟨S100000x512, .f32⟩
  | 1 => ⟨S512x512, .f32⟩
  | 2 => ⟨S512, .f32⟩
  | 3 => ⟨S512x40, .f32⟩
  | 4 => ⟨S40, .f32⟩
  | 5 => ⟨S2x1600000, .i32⟩
  | 6 => ⟨S1x512, .f32⟩
  | 7 => ⟨S1x40, .f32⟩
  | 8 => ⟨S100000x40, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x40, .f32⟩
  | 62 => ⟨S1700000x40, .f32⟩
  | 63 => ⟨S1700000x40, .f32⟩
  | 64 => ⟨S_, .f32⟩
  | 65 => ⟨S100000x40, .f32⟩
  | 66 => ⟨S1700000x1, .i32⟩
  | 67 => ⟨S100000x40, .f32⟩
  | 68 => ⟨S_, .f32⟩
  | 69 => ⟨S100000x40, .f32⟩
  | 70 => ⟨S100000x40, .f32⟩
  | 71 => ⟨S_, .f32⟩
  | 72 => ⟨S100000x40, .f32⟩
  | 73 => ⟨S100000x40, .f32⟩
  | 74 => ⟨S100000x40, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x40, .f32⟩
  | 84 => ⟨S1700000x40, .f32⟩
  | 85 => ⟨S1700000x40, .f32⟩
  | 86 => ⟨S_, .f32⟩
  | 87 => ⟨S100000x40, .f32⟩
  | 88 => ⟨S1700000x1, .i32⟩
  | 89 => ⟨S100000x40, .f32⟩
  | 90 => ⟨S_, .f32⟩
  | 91 => ⟨S100000x40, .f32⟩
  | 92 => ⟨S100000x40, .f32⟩
  | 93 => ⟨S_, .f32⟩
  | 94 => ⟨S100000x40, .f32⟩
  | 95 => ⟨S100000x40, .f32⟩
  | 96 => ⟨S100000x40, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x40, .f32⟩
  | 106 => ⟨S1700000x40, .f32⟩
  | 107 => ⟨S1700000x40, .f32⟩
  | 108 => ⟨S_, .f32⟩
  | 109 => ⟨S100000x40, .f32⟩
  | 110 => ⟨S1700000x1, .i32⟩
  | 111 => ⟨S100000x40, .f32⟩
  | 112 => ⟨S_, .f32⟩
  | 113 => ⟨S100000x40, .f32⟩
  | 114 => ⟨S100000x40, .f32⟩
  | 115 => ⟨S_, .f32⟩
  | 116 => ⟨S100000x40, .f32⟩
  | 117 => ⟨S100000x40, .f32⟩
  | 118 => ⟨S100000x40, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x40, .f32⟩
  | _ => ⟨S100000x512, .f32⟩

abbrev hbmTy0_1 (i : Nat) : BufTy := match i % 128 with
  | 0 => ⟨S1700000x40, .f32⟩
  | 1 => ⟨S1700000x40, .f32⟩
  | 2 => ⟨S_, .f32⟩
  | 3 => ⟨S100000x40, .f32⟩
  | 4 => ⟨S1700000x1, .i32⟩
  | 5 => ⟨S100000x40, .f32⟩
  | 6 => ⟨S_, .f32⟩
  | 7 => ⟨S100000x40, .f32⟩
  | 8 => ⟨S100000x40, .f32⟩
  | 9 => ⟨S_, .f32⟩
  | 10 => ⟨S100000x40, .f32⟩
  | 11 => ⟨S100000x40, .f32⟩
  | 12 => ⟨S100000x40, .f32⟩
  | 13 => ⟨S_, .i32⟩
  | 14 => ⟨S1700000, .i32⟩
  | 15 => ⟨S1700000, .i1⟩
  | 16 => ⟨S_, .i32⟩
  | 17 => ⟨S1700000, .i32⟩
  | 18 => ⟨S1700000, .i32⟩
  | 19 => ⟨S1700000, .i32⟩
  | 20 => ⟨S1700000x1, .i32⟩
  | 21 => ⟨S1700000x40, .f32⟩
  | 22 => ⟨S1700000x40, .f32⟩
  | 23 => ⟨S1700000x40, .f32⟩
  | 24 => ⟨S_, .f32⟩
  | 25 => ⟨S100000x40, .f32⟩
  | 26 => ⟨S1700000x1, .i32⟩
  | 27 => ⟨S100000x40, .f32⟩
  | 28 => ⟨S_, .f32⟩
  | 29 => ⟨S100000x40, .f32⟩
  | 30 => ⟨S100000x40, .f32⟩
  | 31 => ⟨S_, .f32⟩
  | 32 => ⟨S100000x40, .f32⟩
  | 33 => ⟨S100000x40, .f32⟩
  | 34 => ⟨S100000x40, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000x40, .f32⟩
  | 44 => ⟨S1700000x40, .f32⟩
  | 45 => ⟨S1700000x40, .f32⟩
  | 46 => ⟨S_, .f32⟩
  | 47 => ⟨S100000x40, .f32⟩
  | 48 => ⟨S1700000x1, .i32⟩
  | 49 => ⟨S100000x40, .f32⟩
  | 50 => ⟨S_, .f32⟩
  | 51 => ⟨S100000x40, .f32⟩
  | 52 => ⟨S100000x40, .f32⟩
  | 53 => ⟨S_, .f32⟩
  | 54 => ⟨S100000x40, .f32⟩
  | 55 => ⟨S100000x40, .f32⟩
  | 56 => ⟨S100000x40, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x40, .f32⟩
  | 66 => ⟨S1700000x40, .f32⟩
  | 67 => ⟨S1700000x40, .f32⟩
  | 68 => ⟨S_, .f32⟩
  | 69 => ⟨S100000x40, .f32⟩
  | 70 => ⟨S1700000x1, .i32⟩
  | 71 => ⟨S100000x40, .f32⟩
  | 72 => ⟨S_, .f32⟩
  | 73 => ⟨S100000x40, .f32⟩
  | 74 => ⟨S100000x40, .f32⟩
  | 75 => ⟨S_, .f32⟩
  | 76 => ⟨S100000x40, .f32⟩
  | 77 => ⟨S100000x40, .f32⟩
  | 78 => ⟨S100000x40, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x40, .f32⟩
  | 88 => ⟨S1700000x40, .f32⟩
  | 89 => ⟨S1700000x40, .f32⟩
  | 90 => ⟨S_, .f32⟩
  | 91 => ⟨S100000x40, .f32⟩
  | 92 => ⟨S1700000x1, .i32⟩
  | 93 => ⟨S100000x40, .f32⟩
  | 94 => ⟨S_, .f32⟩
  | 95 => ⟨S100000x40, .f32⟩
  | 96 => ⟨S100000x40, .f32⟩
  | 97 => ⟨S_, .f32⟩
  | 98 => ⟨S100000x40, .f32⟩
  | 99 => ⟨S100000x40, .f32⟩
  | 100 => ⟨S100000x40, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x40, .f32⟩
  | 110 => ⟨S1700000x40, .f32⟩
  | 111 => ⟨S1700000x40, .f32⟩
  | 112 => ⟨S_, .f32⟩
  | 113 => ⟨S100000x40, .f32⟩
  | 114 => ⟨S1700000x1, .i32⟩
  | 115 => ⟨S100000x40, .f32⟩
  | 116 => ⟨S_, .f32⟩
  | 117 => ⟨S100000x40, .f32⟩
  | 118 => ⟨S100000x40, .f32⟩
  | 119 => ⟨S_, .f32⟩
  | 120 => ⟨S100000x40, .f32⟩
  | 121 => ⟨S100000x40, .f32⟩
  | 122 => ⟨S100000x40, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x512, .f32⟩

abbrev hbmTy0_2 (i : Nat) : BufTy := match i % 128 with
  | 0 => ⟨S1700000, .i32⟩
  | 1 => ⟨S1700000, .i32⟩
  | 2 => ⟨S1700000x1, .i32⟩
  | 3 => ⟨S1700000x40, .f32⟩
  | 4 => ⟨S1700000x40, .f32⟩
  | 5 => ⟨S1700000x40, .f32⟩
  | 6 => ⟨S_, .f32⟩
  | 7 => ⟨S100000x40, .f32⟩
  | 8 => ⟨S1700000x1, .i32⟩
  | 9 => ⟨S100000x40, .f32⟩
  | 10 => ⟨S_, .f32⟩
  | 11 => ⟨S100000x40, .f32⟩
  | 12 => ⟨S100000x40, .f32⟩
  | 13 => ⟨S_, .f32⟩
  | 14 => ⟨S100000x40, .f32⟩
  | 15 => ⟨S100000x40, .f32⟩
  | 16 => ⟨S100000x40, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S512x40, .f32⟩
  | .local _ .vmem, ⟨5, _⟩ => ⟨S1x40, .f32⟩
  | .local _ .vmem, ⟨6, _⟩ => ⟨S2000x40, .f32⟩
  | .local _ .vmem, ⟨7, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_c_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_17 : Ref sig .tc := ⟨.hbm, 97, rfl⟩
abbrev main_v70 : Ref sig .tc := ⟨.hbm, 98, rfl⟩
abbrev main_v71 : Ref sig .tc := ⟨.hbm, 99, rfl⟩
abbrev main_c_18 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_20 : Ref sig .tc := ⟨.hbm, 112, rfl⟩
abbrev main_v82 : Ref sig .tc := ⟨.hbm, 113, rfl⟩
abbrev main_v83 : Ref sig .tc := ⟨.hbm, 114, rfl⟩
abbrev main_cst_21 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_22 : Ref sig .tc := ⟨.hbm, 119, rfl⟩
abbrev main_v87 : Ref sig .tc := ⟨.hbm, 120, rfl⟩
abbrev main_v88 : Ref sig .tc := ⟨.hbm, 121, rfl⟩
abbrev main_c_23 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_24 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_25 : Ref sig .tc := ⟨.hbm, 134, rfl⟩
abbrev main_v99 : Ref sig .tc := ⟨.hbm, 135, rfl⟩
abbrev main_v100 : Ref sig .tc := ⟨.hbm, 136, rfl⟩
abbrev main_cst_26 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_27 : Ref sig .tc := ⟨.hbm, 141, rfl⟩
abbrev main_v104 : Ref sig .tc := ⟨.hbm, 142, rfl⟩
abbrev main_v105 : Ref sig .tc := ⟨.hbm, 143, rfl⟩
abbrev main_c_28 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_29 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_30 : Ref sig .tc := ⟨.hbm, 156, rfl⟩
abbrev main_v116 : Ref sig .tc := ⟨.hbm, 157, rfl⟩
abbrev main_v117 : Ref sig .tc := ⟨.hbm, 158, rfl⟩
abbrev main_cst_31 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_32 : Ref sig .tc := ⟨.hbm, 163, rfl⟩
abbrev main_v121 : Ref sig .tc := ⟨.hbm, 164, rfl⟩
abbrev main_v122 : Ref sig .tc := ⟨.hbm, 165, rfl⟩
abbrev main_c_33 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_34 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_35 : Ref sig .tc := ⟨.hbm, 178, rfl⟩
abbrev main_v133 : Ref sig .tc := ⟨.hbm, 179, rfl⟩
abbrev main_v134 : Ref sig .tc := ⟨.hbm, 180, rfl⟩
abbrev main_cst_36 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_c_37 : Ref sig .tc := ⟨.hbm, 185, rfl⟩
abbrev main_v138 : Ref sig .tc := ⟨.hbm, 186, rfl⟩
abbrev main_v139 : Ref sig .tc := ⟨.hbm, 187, rfl⟩
abbrev main_c_38 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_39 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_40 : Ref sig .tc := ⟨.hbm, 200, rfl⟩
abbrev main_v150 : Ref sig .tc := ⟨.hbm, 201, rfl⟩
abbrev main_v151 : Ref sig .tc := ⟨.hbm, 202, rfl⟩
abbrev main_cst_41 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_c_42 : Ref sig .tc := ⟨.hbm, 207, rfl⟩
abbrev main_v155 : Ref sig .tc := ⟨.hbm, 208, rfl⟩
abbrev main_v156 : Ref sig .tc := ⟨.hbm, 209, rfl⟩
abbrev main_c_43 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_cst_44 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_cst_45 : Ref sig .tc := ⟨.hbm, 222, rfl⟩
abbrev main_v167 : Ref sig .tc := ⟨.hbm, 223, rfl⟩
abbrev main_v168 : Ref sig .tc := ⟨.hbm, 224, rfl⟩
abbrev main_cst_46 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_c_47 : Ref sig .tc := ⟨.hbm, 229, rfl⟩
abbrev main_v172 : Ref sig .tc := ⟨.hbm, 230, rfl⟩
abbrev main_v173 : Ref sig .tc := ⟨.hbm, 231, rfl⟩
abbrev main_c_48 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_cst_49 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_cst_50 : Ref sig .tc := ⟨.hbm, 244, rfl⟩
abbrev main_v184 : Ref sig .tc := ⟨.hbm, 245, rfl⟩
abbrev main_v185 : Ref sig .tc := ⟨.hbm, 246, rfl⟩
abbrev main_cst_51 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_c_52 : Ref sig .tc := ⟨.hbm, 251, rfl⟩
abbrev main_v189 : Ref sig .tc := ⟨.hbm, 252, rfl⟩
abbrev main_v190 : Ref sig .tc := ⟨.hbm, 253, rfl⟩
abbrev main_c_53 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_cst_54 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_cst_55 : Ref sig .tc := ⟨.hbm, 266, rfl⟩
abbrev main_v201 : Ref sig .tc := ⟨.hbm, 267, rfl⟩
abbrev main_v202 : Ref sig .tc := ⟨.hbm, 268, rfl⟩
abbrev main_cst_56 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S512_S1x512 : S512.ShapeCasts S1x512
  shapeCasts_S40_S1x40 : S40.ShapeCasts S1x40
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x40_S512x40_0_0 : ∀ a, (![0, 0] : Fin 2 → Nat) a + S512x40.size a ≤ S512x40.size a
  h_S512x40 : 0 < S512x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  dot_S2000x512_S512x512_S2000x512_1_0_0_1_n_n_wf : DotDims.WF S2000x512 S512x512 S2000x512 [1] [0] [0] [1] [] []
  dot_S2000x512_S512x40_S2000x40_1_0_0_1_n_n_wf : DotDims.WF S2000x512 S512x40 S2000x40 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x40.size a ≤ S512x40.size a
  hwx0_3 : ∀ i : grid0.Coords, EltTy.bits .f32 = 32 ∨ (Rect.block (s := S512x40) S512x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x40.size a ≤ S100000x40.size a
  hwx0_5 : ∀ i : grid0.Coords, EltTy.bits .f32 = 32 ∨ (Rect.block (s := S100000x40) S2000x40.size (cc0_transform_5 i) (hinb0_5 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x40_S2000x40_1_0_0_1_n_n : DotDims S2000x512 S512x40 S2000x40 where
  lhsContracting := [1]
  rhsContracting := [0]
  lhsNonContracting := [0]
  rhsNonContracting := [1]
  lhsBatch := []
  rhsBatch := []
  wf := dot_S2000x512_S512x40_S2000x40_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2000x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x512 : Shape := ⟨2, ![512, 512]⟩
abbrev S512 : Shape := ⟨1, ![512]⟩
abbrev S512x40 : Shape := ⟨2, ![512, 40]⟩
abbrev S40 : Shape := ⟨1, ![40]⟩
abbrev S2x1600000 : Shape := ⟨2, ![2, 1600000]⟩
abbrev S1x512 : Shape := ⟨2, ![1, 512]⟩
abbrev S_ : Shape := ⟨0, ![]⟩
abbrev S100000x40 : Shape := ⟨2, ![100000, 40]⟩
abbrev S1x40 : Shape := ⟨2, ![1, 40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x40 : Shape := ⟨2, ![1700000, 40]⟩

abbrev nBuf : Space → Nat
  | .hbm => 281
  | .vmem => 0
  | .smem => 0
  | _ => 0

abbrev hbmTy0_0 (i : Nat) : BufTy := match i % 128 with
  | 0 => ⟨S100000x512, .f32⟩
  | 1 => ⟨S512x512, .f32⟩
  | 2 => ⟨S512, .f32⟩
  | 3 => ⟨S512x40, .f32⟩
  | 4 => ⟨S40, .f32⟩
  | 5 => ⟨S2x1600000, .i32⟩
  | 6 => ⟨S100000x512, .f32⟩
  | 7 => ⟨S1x512, .f32⟩
  | 8 => ⟨S100000x512, .f32⟩
  | 9 => ⟨S100000x512, .f32⟩
  | 10 => ⟨S_, .f32⟩
  | 11 => ⟨S100000x512, .f32⟩
  | 12 => ⟨S100000x512, .f32⟩
  | 13 => ⟨S100000x40, .f32⟩
  | 14 => ⟨S1x40, .f32⟩
  | 15 => ⟨S100000x40, .f32⟩
  | 16 => ⟨S100000x40, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S1700000x1, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x40, .f32⟩
  | 70 => ⟨S1700000x40, .f32⟩
  | 71 => ⟨S1700000x40, .f32⟩
  | 72 => ⟨S_, .f32⟩
  | 73 => ⟨S100000x40, .f32⟩
  | 74 => ⟨S1700000x1, .i32⟩
  | 75 => ⟨S100000x40, .f32⟩
  | 76 => ⟨S_, .f32⟩
  | 77 => ⟨S100000x40, .f32⟩
  | 78 => ⟨S100000x40, .f32⟩
  | 79 => ⟨S_, .f32⟩
  | 80 => ⟨S100000x40, .f32⟩
  | 81 => ⟨S100000x40, .f32⟩
  | 82 => ⟨S100000x40, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x40, .f32⟩
  | 92 => ⟨S1700000x40, .f32⟩
  | 93 => ⟨S1700000x40, .f32⟩
  | 94 => ⟨S_, .f32⟩
  | 95 => ⟨S100000x40, .f32⟩
  | 96 => ⟨S1700000x1, .i32⟩
  | 97 => ⟨S100000x40, .f32⟩
  | 98 => ⟨S_, .f32⟩
  | 99 => ⟨S100000x40, .f32⟩
  | 100 => ⟨S100000x40, .f32⟩
  | 101 => ⟨S_, .f32⟩
  | 102 => ⟨S100000x40, .f32⟩
  | 103 => ⟨S100000x40, .f32⟩
  | 104 => ⟨S100000x40, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x40, .f32⟩
  | 114 => ⟨S1700000x40, .f32⟩
  | 115 => ⟨S1700000x40, .f32⟩
  | 116 => ⟨S_, .f32⟩
  | 117 => ⟨S100000x40, .f32⟩
  | 118 => ⟨S1700000x1, .i32⟩
  | 119 => ⟨S100000x40, .f32⟩
  | 120 => ⟨S_, .f32⟩
  | 121 => ⟨S100000x40, .f32⟩
  | 122 => ⟨S100000x40, .f32⟩
  | 123 => ⟨S_, .f32⟩
  | 124 => ⟨S100000x40, .f32⟩
  | 125 => ⟨S100000x40, .f32⟩
  | 126 => ⟨S100000x40, .f32⟩
  | 127 => ⟨S_, .i32⟩
  | _ => ⟨S100000x512, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000x40, .f32⟩
  | 8 => ⟨S1700000x40, .f32⟩
  | 9 => ⟨S1700000x40, .f32⟩
  | 10 => ⟨S_, .f32⟩
  | 11 => ⟨S100000x40, .f32⟩
  | 12 => ⟨S1700000x1, .i32⟩
  | 13 => ⟨S100000x40, .f32⟩
  | 14 => ⟨S_, .f32⟩
  | 15 => ⟨S100000x40, .f32⟩
  | 16 => ⟨S100000x40, .f32⟩
  | 17 => ⟨S_, .f32⟩
  | 18 => ⟨S100000x40, .f32⟩
  | 19 => ⟨S100000x40, .f32⟩
  | 20 => ⟨S100000x40, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000x40, .f32⟩
  | 30 => ⟨S1700000x40, .f32⟩
  | 31 => ⟨S1700000x40, .f32⟩
  | 32 => ⟨S_, .f32⟩
  | 33 => ⟨S100000x40, .f32⟩
  | 34 => ⟨S1700000x1, .i32⟩
  | 35 => ⟨S100000x40, .f32⟩
  | 36 => ⟨S_, .f32⟩
  | 37 => ⟨S100000x40, .f32⟩
  | 38 => ⟨S100000x40, .f32⟩
  | 39 => ⟨S_, .f32⟩
  | 40 => ⟨S100000x40, .f32⟩
  | 41 => ⟨S100000x40, .f32⟩
  | 42 => ⟨S100000x40, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000x40, .f32⟩
  | 52 => ⟨S1700000x40, .f32⟩
  | 53 => ⟨S1700000x40, .f32⟩
  | 54 => ⟨S_, .f32⟩
  | 55 => ⟨S100000x40, .f32⟩
  | 56 => ⟨S1700000x1, .i32⟩
  | 57 => ⟨S100000x40, .f32⟩
  | 58 => ⟨S_, .f32⟩
  | 59 => ⟨S100000x40, .f32⟩
  | 60 => ⟨S100000x40, .f32⟩
  | 61 => ⟨S_, .f32⟩
  | 62 => ⟨S100000x40, .f32⟩
  | 63 => ⟨S100000x40, .f32⟩
  | 64 => ⟨S100000x40, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x40, .f32⟩
  | 74 => ⟨S1700000x40, .f32⟩
  | 75 => ⟨S1700000x40, .f32⟩
  | 76 => ⟨S_, .f32⟩
  | 77 => ⟨S100000x40, .f32⟩
  | 78 => ⟨S1700000x1, .i32⟩
  | 79 => ⟨S100000x40, .f32⟩
  | 80 => ⟨S_, .f32⟩
  | 81 => ⟨S100000x40, .f32⟩
  | 82 => ⟨S100000x40, .f32⟩
  | 83 => ⟨S_, .f32⟩
  | 84 => ⟨S100000x40, .f32⟩
  | 85 => ⟨S100000x40, .f32⟩
  | 86 => ⟨S100000x40, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x40, .f32⟩
  | 96 => ⟨S1700000x40, .f32⟩
  | 97 => ⟨S1700000x40, .f32⟩
  | 98 => ⟨S_, .f32⟩
  | 99 => ⟨S100000x40, .f32⟩
  | 100 => ⟨S1700000x1, .i32⟩
  | 101 => ⟨S100000x40, .f32⟩
  | 102 => ⟨S_, .f32⟩
  | 103 => ⟨S100000x40, .f32⟩
  | 104 => ⟨S100000x40, .f32⟩
  | 105 => ⟨S_, .f32⟩
  | 106 => ⟨S100000x40, .f32⟩
  | 107 => ⟨S100000x40, .f32⟩
  | 108 => ⟨S100000x40, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x40, .f32⟩
  | 118 => ⟨S1700000x40, .f32⟩
  | 119 => ⟨S1700000x40, .f32⟩
  | 120 => ⟨S_, .f32⟩
  | 121 => ⟨S100000x40, .f32⟩
  | 122 => ⟨S1700000x1, .i32⟩
  | 123 => ⟨S100000x40, .f32⟩
  | 124 => ⟨S_, .f32⟩
  | 125 => ⟨S100000x40, .f32⟩
  | 126 => ⟨S100000x40, .f32⟩
  | 127 => ⟨S_, .f32⟩
  | _ => ⟨S100000x512, .f32⟩

abbrev hbmTy0_2 (i : Nat) : BufTy := match i % 128 with
  | 0 => ⟨S100000x40, .f32⟩
  | 1 => ⟨S100000x40, .f32⟩
  | 2 => ⟨S100000x40, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x40, .f32⟩
  | 12 => ⟨S1700000x40, .f32⟩
  | 13 => ⟨S1700000x40, .f32⟩
  | 14 => ⟨S_, .f32⟩
  | 15 => ⟨S100000x40, .f32⟩
  | 16 => ⟨S1700000x1, .i32⟩
  | 17 => ⟨S100000x40, .f32⟩
  | 18 => ⟨S_, .f32⟩
  | 19 => ⟨S100000x40, .f32⟩
  | 20 => ⟨S100000x40, .f32⟩
  | 21 => ⟨S_, .f32⟩
  | 22 => ⟨S100000x40, .f32⟩
  | 23 => ⟨S100000x40, .f32⟩
  | 24 => ⟨S100000x40, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_cst_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_17 : Ref sig .tc := ⟨.hbm, 105, rfl⟩
abbrev main_v76 : Ref sig .tc := ⟨.hbm, 106, rfl⟩
abbrev main_v77 : Ref sig .tc := ⟨.hbm, 107, rfl⟩
abbrev main_c_18 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_20 : Ref sig .tc := ⟨.hbm, 120, rfl⟩
abbrev main_v88 : Ref sig .tc := ⟨.hbm, 121, rfl⟩
abbrev main_v89 : Ref sig .tc := ⟨.hbm, 122, rfl⟩
abbrev main_cst_21 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_22 : Ref sig .tc := ⟨.hbm, 127, rfl⟩
abbrev main_v93 : Ref sig .tc := ⟨.hbm, 128, rfl⟩
abbrev main_v94 : Ref sig .tc := ⟨.hbm, 129, rfl⟩
abbrev main_c_23 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_24 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_25 : Ref sig .tc := ⟨.hbm, 142, rfl⟩
abbrev main_v105 : Ref sig .tc := ⟨.hbm, 143, rfl⟩
abbrev main_v106 : Ref sig .tc := ⟨.hbm, 144, rfl⟩
abbrev main_cst_26 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_27 : Ref sig .tc := ⟨.hbm, 149, rfl⟩
abbrev main_v110 : Ref sig .tc := ⟨.hbm, 150, rfl⟩
abbrev main_v111 : Ref sig .tc := ⟨.hbm, 151, rfl⟩
abbrev main_c_28 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_29 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_30 : Ref sig .tc := ⟨.hbm, 164, rfl⟩
abbrev main_v122 : Ref sig .tc := ⟨.hbm, 165, rfl⟩
abbrev main_v123 : Ref sig .tc := ⟨.hbm, 166, rfl⟩
abbrev main_cst_31 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_c_32 : Ref sig .tc := ⟨.hbm, 171, rfl⟩
abbrev main_v127 : Ref sig .tc := ⟨.hbm, 172, rfl⟩
abbrev main_v128 : Ref sig .tc := ⟨.hbm, 173, rfl⟩
abbrev main_c_33 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_34 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_35 : Ref sig .tc := ⟨.hbm, 186, rfl⟩
abbrev main_v139 : Ref sig .tc := ⟨.hbm, 187, rfl⟩
abbrev main_v140 : Ref sig .tc := ⟨.hbm, 188, rfl⟩
abbrev main_cst_36 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_c_37 : Ref sig .tc := ⟨.hbm, 193, rfl⟩
abbrev main_v144 : Ref sig .tc := ⟨.hbm, 194, rfl⟩
abbrev main_v145 : Ref sig .tc := ⟨.hbm, 195, rfl⟩
abbrev main_c_38 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_39 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_40 : Ref sig .tc := ⟨.hbm, 208, rfl⟩
abbrev main_v156 : Ref sig .tc := ⟨.hbm, 209, rfl⟩
abbrev main_v157 : Ref sig .tc := ⟨.hbm, 210, rfl⟩
abbrev main_cst_41 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_c_42 : Ref sig .tc := ⟨.hbm, 215, rfl⟩
abbrev main_v161 : Ref sig .tc := ⟨.hbm, 216, rfl⟩
abbrev main_v162 : Ref sig .tc := ⟨.hbm, 217, rfl⟩
abbrev main_c_43 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_cst_44 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_45 : Ref sig .tc := ⟨.hbm, 230, rfl⟩
abbrev main_v173 : Ref sig .tc := ⟨.hbm, 231, rfl⟩
abbrev main_v174 : Ref sig .tc := ⟨.hbm, 232, rfl⟩
abbrev main_cst_46 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_c_47 : Ref sig .tc := ⟨.hbm, 237, rfl⟩
abbrev main_v178 : Ref sig .tc := ⟨.hbm, 238, rfl⟩
abbrev main_v179 : Ref sig .tc := ⟨.hbm, 239, rfl⟩
abbrev main_c_48 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_cst_49 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_cst_50 : Ref sig .tc := ⟨.hbm, 252, rfl⟩
abbrev main_v190 : Ref sig .tc := ⟨.hbm, 253, rfl⟩
abbrev main_v191 : Ref sig .tc := ⟨.hbm, 254, rfl⟩
abbrev main_cst_51 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_c_52 : Ref sig .tc := ⟨.hbm, 259, rfl⟩
abbrev main_v195 : Ref sig .tc := ⟨.hbm, 260, rfl⟩
abbrev main_v196 : Ref sig .tc := ⟨.hbm, 261, rfl⟩
abbrev main_c_53 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_cst_54 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_cst_55 : Ref sig .tc := ⟨.hbm, 274, rfl⟩
abbrev main_v207 : Ref sig .tc := ⟨.hbm, 275, rfl⟩
abbrev main_v208 : Ref sig .tc := ⟨.hbm, 276, rfl⟩
abbrev main_cst_56 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  dot_S100000x512_S512x512_S100000x512_1_0_0_1_n_n_wf : DotDims.WF S100000x512 S512x512 S100000x512 [1] [0] [0] [1] [] []
  dot_S100000x512_S512x40_S100000x40_1_0_0_1_n_n_wf : DotDims.WF S100000x512 S512x40 S100000x40 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def dot_S100000x512_S512x40_S100000x40_1_0_0_1_n_n : DotDims S100000x512 S512x40 S100000x40 where
  lhsContracting := [1]
  rhsContracting := [0]
  lhsNonContracting := [0]
  rhsNonContracting := [1]
  lhsBatch := []
  rhsBatch := []
  wf := dot_S100000x512_S512x40_S100000x40_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.BitsHost.lean ====
/-
  The host side of `Kernel`'s frame. @main is two reshapes (each bias vector made a one-row matrix), one region, and then
  264 host operations that never touch the region's six arrays again except to READ the region's result. Stated here, at
  any float instance: the buffer contents at the region's entry, that @main reduces to the region continued by the later
  lines, and the three facts the launch theorem asks of those lines — each touches only unscoped buffers, none allocates,
  none writes an array of the region — together with the fact that no later line writes an argument of @main.
-/
import proofs.«167775_j9320079033153_1_alg».proof.Proof.Gen.Kernel.Launch
import Idealize.ShloMosaic.Lib.Pipeline.FrameBody
import Idealize.ShloMosaic.Lib.Pipeline.FrameSuffix

set_option maxRecDepth 16384

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's entry -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch. -/
abbrev tailOps : List (List (HloOp τ sig (Elt F))) := [hostOps1, hostOps1_1, hostOps1_2]

/-! ## No host line allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

/-! ## @main around the region -/

/-- @main is the two reshapes, the region, and the later lines: it reduces to the region CONTINUED BY the later lines, the
    unscoped buffers held at the contents after the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq [hostOps1, hostOps1_1, hostOps1_2])) :=
  Pipeline.hmain_around cfgs 0 defs₀ 𝒱₀ m main [hostOps0] [hostOps1, hostOps1_1, hostOps1_2] (by simp only [List.Forall]; exact hostOps0_sub)
    (by simp only [List.Forall]; exact hostOps0_fresh)
    (fun c => by simp only [List.map_cons, List.map_nil, List.cons_append, List.nil_append]; exact main_chain c)

/-! ## What the later lines touch -/

/-- They touch the pipeline's arrays and the buffers that bypass the region only: each operation's buffers are unscoped
    TensorCore references, and with nothing prefetched every such reference is one or the other. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-! ## What the later lines do not write

Every later line writes one buffer, its own result, which is none of the references listed here: the six arrays of the
region (the first two arguments, the two reshaped bias rows, the second weight matrix, the region's result) and the
remaining arguments of @main. -/

/-- The references no later line writes. -/
abbrev kept : List (Ref sig .tc) :=
  [main_arg0, main_arg1, main_arg2, main_arg3, main_arg4, main_arg5, main_v0, main_v1, main_v2]

theorem hostOps1_keeps : (hostOps1 : List (HloOp τ sig (Elt F))).Forall fun op => ∀ b ∈ kept, Proc.devRef (τ := τ) .tc b ∉ op.writes := by
  simp only [List.Forall, kept, List.forall_mem_cons, List.not_mem_nil, false_imp_iff, implies_true, and_true,
    StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps : (hostOps1_1 : List (HloOp τ sig (Elt F))).Forall fun op => ∀ b ∈ kept, Proc.devRef (τ := τ) .tc b ∉ op.writes := by
  simp only [List.Forall, kept, List.forall_mem_cons, List.not_mem_nil, false_imp_iff, implies_true, and_true,
    StableHlo.TRef.unary, StableHlo.TRef.ternary,
    StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 40000000 in
theorem hostOps1_2_keeps : (hostOps1_2 : List (HloOp τ sig (Elt F))).Forall fun op => ∀ b ∈ kept, Proc.devRef (τ := τ) .tc b ∉ op.writes := by
  simp only [List.Forall, kept, List.forall_mem_cons, List.not_mem_nil, false_imp_iff, implies_true, and_true,
    StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No later line writes a reference of `kept`. -/
theorem tail_keeps_ref (b : Ref sig .tc) (hb : b ∈ kept) :
    ∀ op ∈ (tailOps : List (List (HloOp τ sig (Elt F)))).flatten, Proc.devRef (τ := τ) .tc b ∉ op.writes := by
  intro op hop
  simp only [tailOps, List.flatten_cons, List.flatten_nil, List.append_nil, List.mem_append] at hop
  rcases hop with hop | hop | hop
  · exact (List.forall_iff_forall_mem.mp hostOps1_keeps) op hop b hb
  · exact (List.forall_iff_forall_mem.mp hostOps1_1_keeps) op hop b hb
  · exact (List.forall_iff_forall_mem.mp hostOps1_2_keeps) op hop b hb

/-- Every array of the region is one of them. -/
theorem arr_mem_kept : ∀ w : Fin 6, Pipeline.arrRef spec0 w ∈ kept := by decide

/-- So the later lines write no array of the region. -/
theorem tail_keeps : ∀ ops ∈ (tailOps : List (List (HloOp τ sig (Elt F)))), ∀ op ∈ ops,
    ∀ w, Proc.devRef .tc (Pipeline.arrRef spec0 w) ∉ op.writes := by
  intro ops hops op hop w
  exact tail_keeps_ref _ (arr_mem_kept w) op (List.mem_flatten.mpr ⟨ops, hops, hop⟩)

/-! ## The arguments at the region's entry -/

theorem hostOps0_keeps (b : Ref sig .tc) (hb : b ∈ [main_arg0, main_arg1, main_arg2, main_arg3, main_arg4, main_arg5]) :
    ∀ op ∈ (List.flatten [hostOps0] : List (HloOp τ sig (Elt F))), Proc.devRef (τ := τ) .tc b ∉ op.writes := by
  simp only [List.mem_cons, List.mem_nil_iff, or_false] at hb
  simp only [hostOps0, List.flatten_cons, List.flatten_nil, List.append_nil, List.forall_mem_cons, List.not_mem_nil, false_imp_iff, implies_true, and_true,
    StableHlo.reshape_writes, Finset.mem_singleton]
  rcases hb with rfl | rfl | rfl | rfl | rfl | rfl <;> exact ⟨StableHlo.devRef_ne_of_ne (by decide), StableHlo.devRef_ne_of_ne (by decide)⟩

/-- The reshapes write none of @main's arguments: the region finds each as launched. -/
theorem V_arg (c : Dev nD) (b : Ref sig .tc) (hb : b ∈ [main_arg0, main_arg1, main_arg2, main_arg3, main_arg4, main_arg5]) :
    V m c b = m ((c : Thread nD τ).loc b) :=
  StableHlo.after_of_forall_not_mem (b := Proc.devRef .tc b) _ _ (hostOps0_keeps b hb)

end Cert.Kernel.Frame

end
-- ==== Proof.BitsBody.lean ====
/-
  The body of `Kernel`'s one kernel at a grid point, at any float instance. It loads the five input blocks whole (a
  2000-row block of x, both weight matrices, both bias rows), loads the output block (a value it never uses), and stores
  ONE value over the whole 2000×40 output block: relu(x·W1 + b1)·W2 + b2 of the loaded blocks. So after the body the
  output's buffer holds that value whatever it held before, and the inputs' buffers are as they were.
-/
import proofs.«167775_j9320079033153_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one the whole block -/

abbrev rX : Rect S2000x512 := Rect.unit (s := S2000x512) ![0, 0] S2000x512.size inb_S2000x512_S2000x512_0_0
abbrev rW1 : Rect S512x512 := Rect.unit (s := S512x512) ![0, 0] S512x512.size inb_S512x512_S512x512_0_0
abbrev rB1 : Rect S1x512 := Rect.unit (s := S1x512) ![0, 0] S1x512.size inb_S1x512_S1x512_0_0
abbrev rW2 : Rect S512x40 := Rect.unit (s := S512x40) ![0, 0] S512x40.size inb_S512x40_S512x40_0_0
abbrev rB2 : Rect S1x40 := Rect.unit (s := S1x40) ![0, 0] S1x40.size inb_S1x40_S1x40_0_0
abbrev rOut : Rect S2000x40 := Rect.unit (s := S2000x40) ![0, 0] S2000x40.size inb_S2000x40_S2000x40_0_0

/-! ## What the body leaves in the output block -/

/-- The output block after the body, from the five input blocks: its one store, of the body's value of the loaded blocks. -/
def outBlock (x0 : Vec F S2000x512 .f32) (x1 : Vec F S512x512 .f32) (x2 : Vec F S1x512 .f32) (x3 : Vec F S512x40 .f32) (x4 : Vec F S1x40 .f32) : Vec F S2000x40 .f32 :=
  View.canon [⟨rOut, k0_pay1 (View.ld x0 rX) (View.ld x1 rW1) (View.ld x2 rB1) (View.ld x3 rW2) (View.ld x4 rB2)⟩]

/-- The one store covers the block. -/
theorem coverOut (p0 : Vec F S2000x40 .f32) (y : S2000x40.Idx) :
    ∃ pc ∈ ([⟨rOut, p0⟩] : List (View.Piece (Elt F) S2000x40 .f32)), y ∈ pc.1.set :=
  View.cover_of_tiled [⟨rOut, p0⟩] S2000x40.size (by rfl) y

/-! ## The body's triple -/

set_option maxHeartbeats 2000000 in
/-- The body on whole staging memrefs, the inputs' at contents `xW` and the output's at anything, runs to the continuation
    holding the inputs' as they were and the output's at `outBlock` of the inputs'. -/
theorem sound_kernel (c : Dev nD) (E : Set ℕ) (i : grid0.Coords) (arg1 : Memref sig .tc .vmem S2000x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x40 .f32) (harg4 : arg4.IsWhole) (arg5 : Memref sig .tc .vmem S1x40 .f32) (harg5 : arg5.IsWhole) (arg6 : Memref sig .tc .vmem S2000x40 .f32) (harg6 : arg6.IsWhole)
    (x0 : Vec F S2000x512 .f32) (x1 : Vec F S512x512 .f32) (x2 : Vec F S1x512 .f32) (x3 : Vec F S512x40 .f32) (x4 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlock x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverOut _)

end Cert.Kernel.Frame

end
-- ==== Proof.BitsFrame.lean ====
/-
  The frame of `Kernel`, at any float instance: every weakly fair execution of @main terminates, nothing faults, and @main's
  six arguments end unchanged. The region is a 50-point grid over blocks of 2000 rows: at each point the pipeline stages
  the point's block of x and the four resident operands, the body (BitsBody) writes the output block, and the pipeline
  writes it back; the proof data name what each staging buffer holds after the body (an input's its block, the output's
  the body's value of the point's input blocks). Around the region are the host lines of BitsHost. The run's post keeps
  the region's result array NAMED (`arrAt 5 N`) and every other buffer at the later lines' value from it, for the value
  claim to read.
-/
import proofs.«167775_j9320079033153_1_alg».proof.Proof.BitsHost
import proofs.«167775_j9320079033153_1_alg».proof.Proof.BitsBody
import proofs.«167775_j9320079033153_1_alg».proof.Proof.Gen.Kernel.Points

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a resident operand is
    fetched at the first point only, and its block index never moves), for any proof data whose array is the entry
    contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body at point `t` each
    input's buffer at its block and the output's at the body's value of the five input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

/-- The proof data's arrays are the region-entry contents (the definition projected, never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has every array of the pipeline at what the
    library computes from the proof data — the region's result at `arrAt 5 N`, the block written back point by point —
    and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-! ## The arguments end unchanged -/

/-- An argument the region does not stage (a bias vector, the edge list) ends at its launch contents: no later line
    writes it, it is none of the region's arrays, and the reshapes before the region do not write it. -/
theorem tail_arg (c : Dev nD) (b : Ref sig .tc) (hb : b ∈ [main_arg2, main_arg4, main_arg5]) :
    Pipeline.afterTail₀ cfgs (dats m) 0 (V0 m) tailOps c b = m ((c : Thread nD τ).loc b) := by
  have hk : b ∈ (kept : List (Ref sig .tc)) := by
    simp only [List.mem_cons, List.mem_nil_iff, or_false] at hb
    rcases hb with rfl | rfl | rfl <;> decide
  have ha : b ∈ [main_arg0, main_arg1, main_arg2, main_arg3, main_arg4, main_arg5] := by
    simp only [List.mem_cons, List.mem_nil_iff, or_false] at hb
    rcases hb with rfl | rfl | rfl <;> decide
  have hne : ∀ w, Pipeline.arrRef spec0 w ≠ b := by
    simp only [List.mem_cons, List.mem_nil_iff, or_false] at hb
    rcases hb with rfl | rfl | rfl <;> decide
  unfold Pipeline.afterTail₀
  rw [StableHlo.after_of_forall_not_mem _ _ (tail_keeps_ref b hk), Pipeline.withArrays_of_ne _ c _ _ b hne]
  exact V_arg m c b ha

/-- THE FRAME: @main runs to the end without a fault and its six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 0).trans (((dats m 0 c).arrAt_in 0 rfl _).trans ((A_eq m c 0).trans (V_arg m c main_arg0 (by decide)))),
      ((h c).1 1).trans (((dats m 0 c).arrAt_in 1 rfl _).trans ((A_eq m c 1).trans (V_arg m c main_arg1 (by decide)))),
      ((h c).2 main_arg2 (Pipeline.mem_restRefs_of main_arg2 (by decide) (by decide))).trans (tail_arg m c main_arg2 (by decide)),
      ((h c).1 3).trans (((dats m 0 c).arrAt_in 3 rfl _).trans ((A_eq m c 3).trans (V_arg m c main_arg3 (by decide)))),
      ((h c).2 main_arg4 (Pipeline.mem_restRefs_of main_arg4 (by decide) (by decide))).trans (tail_arg m c main_arg4 (by decide)),
      ((h c).2 main_arg5 (Pipeline.mem_restRefs_of main_arg5 (by decide) (by decide))).trans (tail_arg m c main_arg5 (by decide))⟩)
    (run_main m ρ)

end Cert.Kernel.Frame

end
-- ==== Proof.IdealHost.lean ====
/-
  The host side of `KernelIdeal`'s frame. @main is two reshapes (each bias vector made a one-row matrix), one region, and then
  264 host operations that never touch the region's six arrays again except to READ the region's result. Stated here, at
  any float instance: the buffer contents at the region's entry, that @main reduces to the region continued by the later
  lines, and the three facts the launch theorem asks of those lines — each touches only unscoped buffers, none allocates,
  none writes an array of the region — together with the fact that no later line writes an argument of @main.
-/
import proofs.«167775_j9320079033153_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's entry -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch. -/
abbrev tailOps : List (List (HloOp τ sig (Elt F))) := [hostOps1, hostOps1_1, hostOps1_2]

/-! ## No host line allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

/-! ## @main around the region -/

/-- @main is the two reshapes, the region, and the later lines: it reduces to the region CONTINUED BY the later lines, the
    unscoped buffers held at the contents after the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq [hostOps1, hostOps1_1, hostOps1_2])) :=
  Pipeline.hmain_around cfgs 0 defs₀ 𝒱₀ m main [hostOps0] [hostOps1, hostOps1_1, hostOps1_2] (by simp only [List.Forall]; exact hostOps0_sub)
    (by simp only [List.Forall]; exact hostOps0_fresh)
    (fun c => by simp only [List.map_cons, List.map_nil, List.cons_append, List.nil_append]; exact main_chain c)

/-! ## What the later lines touch -/

/-- They touch the pipeline's arrays and the buffers that bypass the region only: each operation's buffers are unscoped
    TensorCore references, and with nothing prefetched every such reference is one or the other. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-! ## What the later lines do not write

Every later line writes one buffer, its own result, which is none of the references listed here: the six arrays of the
region (the first two arguments, the two reshaped bias rows, the second weight matrix, the region's result) and the
remaining arguments of @main. -/

/-- The references no later line writes. -/
abbrev kept : List (Ref sig .tc) :=
  [main_arg0, main_arg1, main_arg2, main_arg3, main_arg4, main_arg5, main_v0, main_v1, main_v2]

theorem hostOps1_keeps : (hostOps1 : List (HloOp τ sig (Elt F))).Forall fun op => ∀ b ∈ kept, Proc.devRef (τ := τ) .tc b ∉ op.writes := by
  simp only [List.Forall, kept, List.forall_mem_cons, List.not_mem_nil, false_imp_iff, implies_true, and_true,
    StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps : (hostOps1_1 : List (HloOp τ sig (Elt F))).Forall fun op => ∀ b ∈ kept, Proc.devRef (τ := τ) .tc b ∉ op.writes := by
  simp only [List.Forall, kept, List.forall_mem_cons, List.not_mem_nil, false_imp_iff, implies_true, and_true,
    StableHlo.TRef.unary, StableHlo.TRef.ternary,
    StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 40000000 in
theorem hostOps1_2_keeps : (hostOps1_2 : List (HloOp τ sig (Elt F))).Forall fun op => ∀ b ∈ kept, Proc.devRef (τ := τ) .tc b ∉ op.writes := by
  simp only [List.Forall, kept, List.forall_mem_cons, List.not_mem_nil, false_imp_iff, implies_true, and_true,
    StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No later line writes a reference of `kept`. -/
theorem tail_keeps_ref (b : Ref sig .tc) (hb : b ∈ kept) :
    ∀ op ∈ (tailOps : List (List (HloOp τ sig (Elt F)))).flatten, Proc.devRef (τ := τ) .tc b ∉ op.writes := by
  intro op hop
  simp only [tailOps, List.flatten_cons, List.flatten_nil, List.append_nil, List.mem_append] at hop
  rcases hop with hop | hop | hop
  · exact (List.forall_iff_forall_mem.mp hostOps1_keeps) op hop b hb
  · exact (List.forall_iff_forall_mem.mp hostOps1_1_keeps) op hop b hb
  · exact (List.forall_iff_forall_mem.mp hostOps1_2_keeps) op hop b hb

/-- Every array of the region is one of them. -/
theorem arr_mem_kept : ∀ w : Fin 6, Pipeline.arrRef spec0 w ∈ kept := by decide

/-- So the later lines write no array of the region. -/
theorem tail_keeps : ∀ ops ∈ (tailOps : List (List (HloOp τ sig (Elt F)))), ∀ op ∈ ops,
    ∀ w, Proc.devRef .tc (Pipeline.arrRef spec0 w) ∉ op.writes := by
  intro ops hops op hop w
  exact tail_keeps_ref _ (arr_mem_kept w) op (List.mem_flatten.mpr ⟨ops, hops, hop⟩)

/-! ## The arguments at the region's entry -/

theorem hostOps0_keeps (b : Ref sig .tc) (hb : b ∈ [main_arg0, main_arg1, main_arg2, main_arg3, main_arg4, main_arg5]) :
    ∀ op ∈ (List.flatten [hostOps0] : List (HloOp τ sig (Elt F))), Proc.devRef (τ := τ) .tc b ∉ op.writes := by
  simp only [List.mem_cons, List.mem_nil_iff, or_false] at hb
  simp only [hostOps0, List.flatten_cons, List.flatten_nil, List.append_nil, List.forall_mem_cons, List.not_mem_nil, false_imp_iff, implies_true, and_true,
    StableHlo.reshape_writes, Finset.mem_singleton]
  rcases hb with rfl | rfl | rfl | rfl | rfl | rfl <;> exact ⟨StableHlo.devRef_ne_of_ne (by decide), StableHlo.devRef_ne_of_ne (by decide)⟩

/-- The reshapes write none of @main's arguments: the region finds each as launched. -/
theorem V_arg (c : Dev nD) (b : Ref sig .tc) (hb : b ∈ [main_arg0, main_arg1, main_arg2, main_arg3, main_arg4, main_arg5]) :
    V m c b = m ((c : Thread nD τ).loc b) :=
  StableHlo.after_of_forall_not_mem (b := Proc.devRef .tc b) _ _ (hostOps0_keeps b hb)

end Cert.KernelIdeal.Frame

end
-- ==== Proof.IdealBody.lean ====
/-
  The body of `KernelIdeal`'s one kernel at a grid point, at any float instance. It loads the five input blocks whole (a
  2000-row block of x, both weight matrices, both bias rows), loads the output block (a value it never uses), and stores
  ONE value over the whole 2000×40 output block: relu(x·W1 + b1)·W2 + b2 of the loaded blocks. So after the body the
  output's buffer holds that value whatever it held before, and the inputs' buffers are as they were.
-/
import proofs.«167775_j9320079033153_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one the whole block -/

abbrev rX : Rect S2000x512 := Rect.unit (s := S2000x512) ![0, 0] S2000x512.size inb_S2000x512_S2000x512_0_0
abbrev rW1 : Rect S512x512 := Rect.unit (s := S512x512) ![0, 0] S512x512.size inb_S512x512_S512x512_0_0
abbrev rB1 : Rect S1x512 := Rect.unit (s := S1x512) ![0, 0] S1x512.size inb_S1x512_S1x512_0_0
abbrev rW2 : Rect S512x40 := Rect.unit (s := S512x40) ![0, 0] S512x40.size inb_S512x40_S512x40_0_0
abbrev rB2 : Rect S1x40 := Rect.unit (s := S1x40) ![0, 0] S1x40.size inb_S1x40_S1x40_0_0
abbrev rOut : Rect S2000x40 := Rect.unit (s := S2000x40) ![0, 0] S2000x40.size inb_S2000x40_S2000x40_0_0

/-! ## What the body leaves in the output block -/

/-- The output block after the body, from the five input blocks: its one store, of the body's value of the loaded blocks. -/
def outBlock (x0 : Vec F S2000x512 .f32) (x1 : Vec F S512x512 .f32) (x2 : Vec F S1x512 .f32) (x3 : Vec F S512x40 .f32) (x4 : Vec F S1x40 .f32) : Vec F S2000x40 .f32 :=
  View.canon [⟨rOut, k0_pay1 (View.ld x0 rX) (View.ld x1 rW1) (View.ld x2 rB1) (View.ld x3 rW2) (View.ld x4 rB2)⟩]

/-- The one store covers the block. -/
theorem coverOut (p0 : Vec F S2000x40 .f32) (y : S2000x40.Idx) :
    ∃ pc ∈ ([⟨rOut, p0⟩] : List (View.Piece (Elt F) S2000x40 .f32)), y ∈ pc.1.set :=
  View.cover_of_tiled [⟨rOut, p0⟩] S2000x40.size (by rfl) y

/-! ## The body's triple -/

set_option maxHeartbeats 2000000 in
/-- The body on whole staging memrefs, the inputs' at contents `xW` and the output's at anything, runs to the continuation
    holding the inputs' as they were and the output's at `outBlock` of the inputs'. -/
theorem sound_kernel (c : Dev nD) (E : Set ℕ) (i : grid0.Coords) (arg1 : Memref sig .tc .vmem S2000x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x40 .f32) (harg4 : arg4.IsWhole) (arg5 : Memref sig .tc .vmem S1x40 .f32) (harg5 : arg5.IsWhole) (arg6 : Memref sig .tc .vmem S2000x40 .f32) (harg6 : arg6.IsWhole)
    (x0 : Vec F S2000x512 .f32) (x1 : Vec F S512x512 .f32) (x2 : Vec F S1x512 .f32) (x3 : Vec F S512x40 .f32) (x4 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlock x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverOut _)

end Cert.KernelIdeal.Frame

end
-- ==== Proof.IdealFrame.lean ====
/-
  The frame of `KernelIdeal`, at any float instance: every weakly fair execution of @main terminates, nothing faults, and @main's
  six arguments end unchanged. The region is a 50-point grid over blocks of 2000 rows: at each point the pipeline stages
  the point's block of x and the four resident operands, the body (IdealBody) writes the output block, and the pipeline
  writes it back; the proof data name what each staging buffer holds after the body (an input's its block, the output's
  the body's value of the point's input blocks). Around the region are the host lines of IdealHost. The run's post keeps
  the region's result array NAMED (`arrAt 5 N`) and every other buffer at the later lines' value from it, for the value
  claim to read.
-/
import proofs.«167775_j9320079033153_1_alg».proof.Proof.IdealHost
import proofs.«167775_j9320079033153_1_alg».proof.Proof.IdealBody
import proofs.«167775_j9320079033153_1_alg».proof.Proof.Gen.KernelIdeal.Points

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a resident operand is
    fetched at the first point only, and its block index never moves), for any proof data whose array is the entry
    contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body at point `t` each
    input's buffer at its block and the output's at the body's value of the five input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

/-- The proof data's arrays are the region-entry contents (the definition projected, never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has every array of the pipeline at what the
    library computes from the proof data — the region's result at `arrAt 5 N`, the block written back point by point —
    and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-! ## The arguments end unchanged -/

/-- An argument the region does not stage (a bias vector, the edge list) ends at its launch contents: no later line
    writes it, it is none of the region's arrays, and the reshapes before the region do not write it. -/
theorem tail_arg (c : Dev nD) (b : Ref sig .tc) (hb : b ∈ [main_arg2, main_arg4, main_arg5]) :
    Pipeline.afterTail₀ cfgs (dats m) 0 (V0 m) tailOps c b = m ((c : Thread nD τ).loc b) := by
  have hk : b ∈ (kept : List (Ref sig .tc)) := by
    simp only [List.mem_cons, List.mem_nil_iff, or_false] at hb
    rcases hb with rfl | rfl | rfl <;> decide
  have ha : b ∈ [main_arg0, main_arg1, main_arg2, main_arg3, main_arg4, main_arg5] := by
    simp only [List.mem_cons, List.mem_nil_iff, or_false] at hb
    rcases hb with rfl | rfl | rfl <;> decide
  have hne : ∀ w, Pipeline.arrRef spec0 w ≠ b := by
    simp only [List.mem_cons, List.mem_nil_iff, or_false] at hb
    rcases hb with rfl | rfl | rfl <;> decide
  unfold Pipeline.afterTail₀
  rw [StableHlo.after_of_forall_not_mem _ _ (tail_keeps_ref b hk), Pipeline.withArrays_of_ne _ c _ _ b hne]
  exact V_arg m c b ha

/-- THE FRAME: @main runs to the end without a fault and its six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 0).trans (((dats m 0 c).arrAt_in 0 rfl _).trans ((A_eq m c 0).trans (V_arg m c main_arg0 (by decide)))),
      ((h c).1 1).trans (((dats m 0 c).arrAt_in 1 rfl _).trans ((A_eq m c 1).trans (V_arg m c main_arg1 (by decide)))),
      ((h c).2 main_arg2 (Pipeline.mem_restRefs_of main_arg2 (by decide) (by decide))).trans (tail_arg m c main_arg2 (by decide)),
      ((h c).1 3).trans (((dats m 0 c).arrAt_in 3 rfl _).trans ((A_eq m c 3).trans (V_arg m c main_arg3 (by decide)))),
      ((h c).2 main_arg4 (Pipeline.mem_restRefs_of main_arg4 (by decide) (by decide))).trans (tail_arg m c main_arg4 (by decide)),
      ((h c).2 main_arg5 (Pipeline.mem_restRefs_of main_arg5 (by decide) (by decide))).trans (tail_arg m c main_arg5 (by decide))⟩)
    (run_main m ρ)

end Cert.KernelIdeal.Frame

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«167775_j9320079033153_1_alg».proof.Proof.LibPlainMatmul
import proofs.«167775_j9320079033153_1_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.LibLayerForms.lean ====
/-
  The whole-array forms of the three dense stages, over the extended reals, and the fact that makes them computable
  block by block: each entry depends on one row of the row-indexed operands only.

  * `scaledProduct X W D`: entry (r, q) is (Σ_k X(r, k) · W(k, q)) · D(r, 0) — a matrix product whose row r is scaled by
    the r-th entry of a one-column array.
  * `activated A D B`: entry (r, k) is max(A(r, k) · D(r, 0) + B(0, k), 0) — scale each row, add a row vector, take the
    positive part. The zero is kept as the float word both programs write.
  * `biasedProduct X W B`: entry (r, q) is Σ_k X(r, k) · W(k, q) + B(0, q).
-/
import proofs.«167775_j9320079033153_1_alg».proof.Proof.LibMatrixProduct

noncomputable section

namespace Cert.Gcn

open Idealize.ShloMosaic Idealize.ShloMosaic.ValueIdx Cert.MatrixProduct

/-- A matrix product with each row scaled by that row's entry of a one-column array. -/
def scaledProduct {M K N : ℕ} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => mm X W i * D (ix2 (i 0) (0 : Fin 1))

/-- Each row scaled by its entry of a one-column array, a row vector added, the positive part taken. -/
def activated {M K : ℕ} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (i 0) (0 : Fin 1)) + B (ix2 (0 : Fin 1) (i 1))) (Ideal.ofBits .f32 0x00000000#32)

/-- A matrix product plus a row vector. -/
def biasedProduct {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => mm X W i + B (ix2 (0 : Fin 1) (i 1))

/-- Row `p` of the activation of a block is row `r` of the activation of the whole arrays, when row `p` of the block is
    row `r` of the array, its factor is that row's factor, and the row vectors agree. -/
theorem activated_row {M R K : ℕ} (A : (⟨2, ![M, K]⟩ : Shape).Idx → EReal) (D : (⟨2, ![M, 1]⟩ : Shape).Idx → EReal)
    (B : (⟨2, ![1, K]⟩ : Shape).Idx → EReal) (x0 : (⟨2, ![R, K]⟩ : Shape).Idx → EReal) (x1 : (⟨2, ![R, 1]⟩ : Shape).Idx → EReal)
    (x2 : (⟨2, ![1, K]⟩ : Shape).Idx → EReal) (p : Fin R) (r : Fin M)
    (h0 : ∀ k : Fin K, x0 (ix2 p k) = A (ix2 r k)) (h1 : x1 (ix2 p (0 : Fin 1)) = D (ix2 r (0 : Fin 1)))
    (h2 : ∀ k : Fin K, x2 (ix2 (0 : Fin 1) k) = B (ix2 (0 : Fin 1) k)) (k : Fin K) :
    activated x0 x1 x2 (ix2 p k) = activated A D B (ix2 r k) := by
  show max (x0 (ix2 p k) * x1 (ix2 p (0 : Fin 1)) + x2 (ix2 (0 : Fin 1) k)) _
    = max (A (ix2 r k) * D (ix2 r (0 : Fin 1)) + B (ix2 (0 : Fin 1) k)) _
  rw [h0 k, h1, h2 k]

/-- Entry `(p, q)` of a block's product, scaled by the block's factor of row `p`, is entry `(r, q)` of the whole scaled
    product, when row `p` of the block is row `r`, the right factors agree on column `q`, and the factors agree. -/
theorem scaledProduct_row {M R K N : ℕ} (X : (⟨2, ![M, K]⟩ : Shape).Idx → EReal) (W : (⟨2, ![K, N]⟩ : Shape).Idx → EReal)
    (D : (⟨2, ![M, 1]⟩ : Shape).Idx → EReal) (x0 : (⟨2, ![R, K]⟩ : Shape).Idx → EReal) (x1 : (⟨2, ![K, N]⟩ : Shape).Idx → EReal)
    (x2 : (⟨2, ![R, 1]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 p (0 : Fin 1)) = D (ix2 r (0 : Fin 1))) :
    mm x0 x1 (ix2 p q) * x2 (ix2 p (0 : Fin 1)) = scaledProduct X W D (ix2 r q) := by
  show _ = mm X W (ix2 r q) * D (ix2 r (0 : Fin 1))
  rw [h2]
  exact congrArg (· * D (ix2 r (0 : Fin 1))) (mm_of_row_col X W x0 x1 (ix2 p q) (ix2 r q) h0 h1)

/-- Entry `(p, q)` of a block's product plus a row vector is entry `(r, q)` of the whole biased product. -/
theorem biasedProduct_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (x1 : (⟨2, ![K, N]⟩ : Shape).Idx → EReal)
    (x2 : (⟨2, ![1, N]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 (0 : Fin 1) q) = B (ix2 (0 : Fin 1) q)) :
    mm x0 x1 (ix2 p q) + x2 (ix2 (0 : Fin 1) q) = biasedProduct X W B (ix2 r q) := by
  show _ = mm X W (ix2 r q) + B (ix2 (0 : Fin 1) q)
  rw [h2]
  exact congrArg (· + B (ix2 (0 : Fin 1) q)) (mm_of_row_col X W x0 x1 (ix2 p q) (ix2 r q) h0 h1)

end Cert.Gcn

end
-- ==== Proof.LibBiasedBlock.lean ====
/-
  One dense layer — a matrix product plus a row vector — in its three machine spellings.

  With X an M × K array, W a K × N array and b a vector of length N, the layer's value is the array whose entry (r, q) is
  Σ_k X(r, k) · W(k, q) + b(q). Over the extended reals three spellings of it are that one array:
    * the matrix unit's form on a block of rows: both operands narrowed to a shorter float format (the identity on
      the extended reals), multiplied into an accumulator of zeros, and a 1 × N row broadcast down the rows added;
    * the host's form: a `dot_general` plus the 1 × N row repeated M times;
    * the vector b written as a 1 × N row either by a reshape or by a broadcast along a new leading axis: the same row.
-/
import proofs.«167775_j9320079033153_1_alg».proof.Proof.LibLayerForms
import Idealize.ShloMosaic.Lib.ValueLayout
import Idealize.ShloMosaic.Lib.Pipeline.Value
import Idealize.ShloMosaic.Lib.ValueIdx

noncomputable section

namespace Cert.Gcn

open Idealize.ShloMosaic Idealize.ShloMosaic.ValueIdx Cert.MatrixProduct

/-- A vector of length `n` laid out as the one row of a 1 × n array. -/
def rowOf {n : ℕ} (b : (⟨1, ![n]⟩ : Shape).Idx → EReal) : (⟨2, ![1, n]⟩ : Shape).Idx → EReal :=
  fun i => b (ix1 (i 1))

/-- The matrix unit's layer on a block: operands narrowed to bf16, multiplied into zeros, plus the broadcast row. -/
theorem block_linear {R K N : ℕ}
    (w : DotDims.WF ⟨2, ![R, K]⟩ ⟨2, ![K, N]⟩ ⟨2, ![R, N]⟩ [1] [0] [0] [1] [] [])
    (hb : FTy.bits .bf16 < FTy.bits .f32)
    (h0 : (⟨2, ![R, K]⟩ : Shape).ShapeCasts ⟨2, ![R, K]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 (shapeCast ⟨2, ![R, K]⟩ x0 h0) hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, shapeCast_self, broadcastTo_1b_ab_apply]
  rfl

/-- The host's layer: a `dot_general` plus a 1 × N row repeated down the M rows. -/
theorem host_linear {M K N : ℕ}
    (w : DotDims.WF ⟨2, ![M, K]⟩ ⟨2, ![K, N]⟩ ⟨2, ![M, N]⟩ [1] [0] [0] [1] [] [])
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (B : FVec Ideal ⟨2, ![1, N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 B)
      = biasedProduct A W B := by
  funext j
  obtain ⟨p, q, rfl⟩ : ∃ (p : Fin M) (q : Fin N), j = ix2 p q := ⟨j 0, j 1, eq_ix2 j⟩
  rw [addf_apply, dotGeneral_eq_mm]
  refine congrArg (mm A W (ix2 p q) + ·) ?_
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if N = 1 then 0 else q.val
    split
    · have := q.isLt; omega
    · rfl

/-- A vector broadcast along a new leading axis is its one row. -/
theorem bcast_row_eq_rowOf {n : ℕ} (b : (⟨1, ![n]⟩ : Shape).Idx → EReal)
    (h1 : (⟨1, ![n]⟩ : Shape).BroadcastsInDim ⟨2, ![1, n]⟩ (![1] : Fin 1 → Fin 2)) :
    broadcastInDim ⟨2, ![1, n]⟩ (![1] : Fin 1 → Fin 2) h1 b = rowOf b := by
  funext j
  obtain ⟨u, a, rfl⟩ : ∃ (u : Fin 1) (a : Fin n), j = ix2 u a := ⟨j 0, j 1, eq_ix2 j⟩
  refine broadcastInDim_apply _ h1 b (ix2 u a) (ix1 a) (fun ax => ?_)
  match ax with
  | ⟨0, _⟩ =>
    show a.val = if n = 1 then 0 else a.val
    split
    · have := a.isLt; omega
    · rfl

/-- A vector reshaped to 1 × n is its one row. -/
theorem cast_row_eq_rowOf {n : ℕ} (b : (⟨1, ![n]⟩ : Shape).Idx → EReal)
    (h : (⟨1, ![n]⟩ : Shape).ShapeCasts ⟨2, ![1, n]⟩) :
    shapeCast ⟨2, ![1, n]⟩ b h = rowOf b := by
  funext j
  obtain ⟨u, a, rfl⟩ : ∃ (u : Fin 1) (a : Fin n), j = ix2 u a := ⟨j 0, j 1, eq_ix2 j⟩
  exact shapeCast_a_1a_apply b h u a

end Cert.Gcn

end
-- ==== Proof.LibTwoLayer.lean ====
/-
  Two dense layers with a positive part between them, over the extended reals:

      hidden X W1 B1 (r, k) = max (Σ_j X(r, j) · W1(j, k) + B1(0, k), 0)
      logits X W1 B1 W2 B2 (r, q) = Σ_k hidden(r, k) · W2(k, q) + B2(0, q)

  with the two bias vectors laid out as one-row arrays. Three facts. (1) What the matrix unit computes on a block of
  rows — operands narrowed to a shorter float format (the identity on the extended reals), products accumulated from
  zero, a one-row array broadcast down the rows added, the larger of the sum and zero taken — is `logits` of the blocks.
  (2) What the host computes — two `dot_general`s, each followed by the bias vector broadcast first to a row and then
  down the rows, with a maximum against a broadcast zero between — is `logits` of the whole arrays. (3) Row `p` of
  `logits` of a block of rows is row `r` of `logits` of the whole array when row `p` of the block is row `r` of the
  array: an entry depends on one row of X only, so the row-tiled computation assembles the whole one.
-/
import proofs.«167775_j9320079033153_1_alg».proof.Proof.LibBiasedBlock

noncomputable section

namespace Cert.Mlp

open Idealize.ShloMosaic Idealize.ShloMosaic.ValueIdx Cert.MatrixProduct Cert.Gcn

/-- The first layer: a biased product, then the larger of it and the zero word. -/
def hidden {M K N : ℕ} (X : (⟨2, ![M, K]⟩ : Shape).Idx → EReal) (W1 : (⟨2, ![K, N]⟩ : Shape).Idx → EReal)
    (B1 : (⟨2, ![1, N]⟩ : Shape).Idx → EReal) : (⟨2, ![M, N]⟩ : Shape).Idx → EReal :=
  fun i => max (biasedProduct X W1 B1 i) (Ideal.ofBits .f32 0x00000000#32)

/-- Both layers. -/
def logits {M K N Q : ℕ} (X : (⟨2, ![M, K]⟩ : Shape).Idx → EReal) (W1 : (⟨2, ![K, N]⟩ : Shape).Idx → EReal)
    (B1 : (⟨2, ![1, N]⟩ : Shape).Idx → EReal) (W2 : (⟨2, ![N, Q]⟩ : Shape).Idx → EReal) (B2 : (⟨2, ![1, Q]⟩ : Shape).Idx → EReal) :
    (⟨2, ![M, Q]⟩ : Shape).Idx → EReal :=
  biasedProduct (hidden X W1 B1) W2 B2

/-- The matrix unit's biased product of a block: operands narrowed, multiplied into zeros, plus the broadcast row. -/
theorem block_biased {R K N : ℕ}
    (w : DotDims.WF ⟨2, ![R, K]⟩ ⟨2, ![K, N]⟩ ⟨2, ![R, N]⟩ [1] [0] [0] [1] [] [])
    (hb : FTy.bits .bf16 < FTy.bits .f32) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 x0 hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, broadcastTo_1b_ab_apply]
  rfl

/-- (1) The matrix unit's two layers on a block of rows are `logits` of the blocks. -/
theorem block_logits {R K N Q : ℕ}
    (w1 : DotDims.WF ⟨2, ![R, K]⟩ ⟨2, ![K, N]⟩ ⟨2, ![R, N]⟩ [1] [0] [0] [1] [] [])
    (w2 : DotDims.WF ⟨2, ![R, N]⟩ ⟨2, ![N, Q]⟩ ⟨2, ![R, Q]⟩ [1] [0] [0] [1] [] [])
    (hb : FTy.bits .bf16 < FTy.bits .f32)
    (h1 : (⟨2, ![1, N]⟩ : Shape).ShapeCasts ⟨2, ![1, N]⟩) (hbc1 : (⟨2, ![1, N]⟩ : Shape).Broadcasts ⟨2, ![R, N]⟩)
    (h2 : (⟨2, ![1, Q]⟩ : Shape).ShapeCasts ⟨2, ![1, Q]⟩) (hbc2 : (⟨2, ![1, Q]⟩ : Shape).Broadcasts ⟨2, ![R, Q]⟩)
    (x0 : FVec Ideal ⟨2, ![R, K]⟩ .f32) (x1 : FVec Ideal ⟨2, ![K, N]⟩ .f32) (x2 : FVec Ideal ⟨2, ![1, N]⟩ .f32)
    (x3 : FVec Ideal ⟨2, ![N, Q]⟩ .f32) (x4 : FVec Ideal ⟨2, ![1, Q]⟩ .f32) :
    addf (matmul (⟨[1], [0], [0], [1], [], [], w2⟩ : DotDims ⟨2, ![R, N]⟩ ⟨2, ![N, Q]⟩ ⟨2, ![R, Q]⟩) none
          (truncf .bf16
            (maximumf
              (addf (matmul (⟨[1], [0], [0], [1], [], [], w1⟩ : DotDims ⟨2, ![R, K]⟩ ⟨2, ![K, N]⟩ ⟨2, ![R, N]⟩) none
                    (truncf .bf16 x0 hb) (truncf .bf16 x1 hb) (constant (F := Ideal) ⟨2, ![R, N]⟩ .f32 0x00000000#32))
                (broadcastTo ⟨2, ![R, N]⟩ (shapeCast ⟨2, ![1, N]⟩ x2 h1) hbc1))
              (broadcast ⟨2, ![R, N]⟩ (Scalar.ofBits (F := Ideal) .f32 0x00000000#32))) hb)
          (truncf .bf16 x3 hb)
          (constant (F := Ideal) ⟨2, ![R, Q]⟩ .f32 0x00000000#32))
        (broadcastTo ⟨2, ![R, Q]⟩ (shapeCast ⟨2, ![1, Q]⟩ x4 h2) hbc2)
      = logits x0 x1 x2 x3 x4 := by
  rw [block_biased w1 hb h1 hbc1 x0 x1 x2]
  exact block_biased w2 hb h2 hbc2 _ x3 x4

/-- The host's biased product with the bias a VECTOR: broadcast to a row, then down the rows. -/
theorem host_biased {M K N : ℕ}
    (w : DotDims.WF ⟨2, ![M, K]⟩ ⟨2, ![K, N]⟩ ⟨2, ![M, N]⟩ [1] [0] [0] [1] [] [])
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (b : FVec Ideal ⟨1, ![N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 (broadcastInDim ⟨2, ![1, N]⟩ (![1] : Fin 1 → Fin 2) h1 b))
      = biasedProduct A W (rowOf b) := by
  rw [bcast_row_eq_rowOf b h1]
  exact host_linear w h2 A W (rowOf b)

/-- (2) The host's two layers are `logits` of the whole arrays, the bias vectors as rows. -/
theorem host_logits {M K N Q : ℕ}
    (w1 : DotDims.WF ⟨2, ![M, K]⟩ ⟨2, ![K, N]⟩ ⟨2, ![M, N]⟩ [1] [0] [0] [1] [] [])
    (w2 : DotDims.WF ⟨2, ![M, N]⟩ ⟨2, ![N, Q]⟩ ⟨2, ![M, Q]⟩ [1] [0] [0] [1] [] [])
    (h1 : (⟨1, ![N]⟩ : Shape).BroadcastsInDim ⟨2, ![1, N]⟩ (![1] : Fin 1 → Fin 2))
    (h1' : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (h2 : (⟨1, ![Q]⟩ : Shape).BroadcastsInDim ⟨2, ![1, Q]⟩ (![1] : Fin 1 → Fin 2))
    (h2' : (⟨2, ![1, Q]⟩ : Shape).BroadcastsInDim ⟨2, ![M, Q]⟩ (![0, 1] : Fin 2 → Fin 2))
    (X : FVec Ideal ⟨2, ![M, K]⟩ .f32) (W1 : FVec Ideal ⟨2, ![K, N]⟩ .f32) (b1 : FVec Ideal ⟨1, ![N]⟩ .f32)
    (W2 : FVec Ideal ⟨2, ![N, Q]⟩ .f32) (b2 : FVec Ideal ⟨1, ![Q]⟩ .f32) :
    addf (Host.dotGeneral (⟨[1], [0], [0], [1], [], [], w2⟩ : DotDims ⟨2, ![M, N]⟩ ⟨2, ![N, Q]⟩ ⟨2, ![M, Q]⟩) none
          (maximumf
            (addf (Host.dotGeneral (⟨[1], [0], [0], [1], [], [], w1⟩ : DotDims ⟨2, ![M, K]⟩ ⟨2, ![K, N]⟩ ⟨2, ![M, N]⟩) none X W1)
              (broadcastInDim ⟨2, ![M, N]⟩ (![0, 1] : Fin 2 → Fin 2) h1' (broadcastInDim ⟨2, ![1, N]⟩ (![1] : Fin 1 → Fin 2) h1 b1)))
            (broadcastInDim ⟨2, ![M, N]⟩ (![] : Fin 0 → Fin 2) h0 (constant (F := Ideal) ⟨0, ![]⟩ .f32 0x00000000#32)))
          W2)
        (broadcastInDim ⟨2, ![M, Q]⟩ (![0, 1] : Fin 2 → Fin 2) h2' (broadcastInDim ⟨2, ![1, Q]⟩ (![1] : Fin 1 → Fin 2) h2 b2))
      = logits X W1 (rowOf b1) W2 (rowOf b2) := by
  rw [host_biased w1 h1 h1' X W1 b1]
  exact host_biased w2 h2 h2' _ W2 b2

/-- (3) Row `p` of `logits` of a block of rows is row `r` of `logits` of the whole array, when row `p` of the block is row
    `r` of the array and the other operands are the same. -/
theorem logits_row {M R K N Q : ℕ} (X : (⟨2, ![M, K]⟩ : Shape).Idx → EReal) (W1 : (⟨2, ![K, N]⟩ : Shape).Idx → EReal)
    (B1 : (⟨2, ![1, N]⟩ : Shape).Idx → EReal) (W2 : (⟨2, ![N, Q]⟩ : Shape).Idx → EReal) (B2 : (⟨2, ![1, Q]⟩ : Shape).Idx → EReal)
    (x0 : (⟨2, ![R, K]⟩ : Shape).Idx → EReal) (p : Fin R) (r : Fin M) (q : Fin Q)
    (h0 : ∀ j : Fin K, x0 (ix2 p j) = X (ix2 r j)) :
    logits x0 W1 B1 W2 B2 (ix2 p q) = logits X W1 B1 W2 B2 (ix2 r q) := by
  refine biasedProduct_row (hidden X W1 B1) W2 B2 (hidden x0 W1 B1) W2 B2 p q r (fun k => ?_) (fun _ => rfl) rfl
  show max (biasedProduct x0 W1 B1 (ix2 p k)) _ = max (biasedProduct X W1 B1 (ix2 r k)) _
  exact congrArg (max · _) (biasedProduct_row X W1 B1 x0 W1 B1 p k r h0 (fun _ => rfl) rfl)

end Cert.Mlp

end
-- ==== Proof.IdealValue.lean ====
/-
  What the region of the idealized kernel leaves in its result array, at the exact extended reals: `logits` of the whole
  arguments (LibTwoLayer), row by row. Point `t` of the 50-point grid loads rows 2000·t … 2000·t + 1999 of x and the four
  resident operands whole, and writes back rows 2000·t … 2000·t + 1999 of the result; by (1) of LibTwoLayer the written block
  is `logits` of the loaded blocks, by (3) its row `p` is row 2000·t + p of `logits` of the whole arrays, and the 50
  blocks cover the array (row `r` lies in block `r / 2000`). The two bias rows the region reads are the bias vectors
  reshaped by the host before the region: each is its vector laid out as one row.
-/
import proofs.«167775_j9320079033153_1_alg».proof.Proof.IdealFrame
import proofs.«167775_j9320079033153_1_alg».proof.Proof.LibTwoLayer
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)
open Cert.Mlp Cert.Gcn Cert.MatrixProduct

variable (m : (ℓ : Loc nD τ sig) → Buf (Elt Ideal) ℓ) (ρ : Dev nD → PrngReg)

theorem hz : (![0, 0] : Fin 2 → Nat) = fun _ => 0 := funext fun a => by fin_cases a <;> rfl

/-- The body's value of its loaded blocks is `logits` of them. -/
theorem pay_eq (x0 : Vec Ideal S2000x512 .f32) (x1 : Vec Ideal S512x512 .f32) (x2 : Vec Ideal S1x512 .f32)
    (x3 : Vec Ideal S512x40 .f32) (x4 : Vec Ideal S1x40 .f32) :
    k0_pay1 (F := Ideal) x0 x1 x2 x3 x4 = logits x0 x1 x2 x3 x4 :=
  block_logits _ _ bitsLt_bf16_f32 shapeCasts_S1x512_S1x512 broadcasts_S1x512_S2000x512 shapeCasts_S1x40_S1x40
    broadcasts_S1x40_S2000x40 x0 x1 x2 x3 x4

/-- The printed index maps over the grid: the block of x and the block of the result at point `t` are row block `t`;
    every resident operand's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks the body loads -/

/-- Row `p` of point `t`'s block of x is row 2000·t + p of x. -/
theorem xblk (c : Dev nD) (t : Fin cfg0.N) (p : Fin 2000) (k : Fin 512) (hr : 2000 * t.val + p.val < 100000) :
    iblk m c 0 t (ix2 p k) = V m c main_arg0 (ix2 ⟨2000 * t.val + p.val, hr⟩ k) := by
  obtain ⟨e00, e01, -⟩ := idx_facts t
  show V m c main_arg0 (((cfg0.win 0).blk t).view.emb (ix2 p k)) = _
  refine congrArg (V m c main_arg0) ?_
  funext a; apply Fin.ext
  match a with
  | ⟨0, _⟩ => show win0_0.index t (0 : Fin 2) * 2000 + 1 * p.val = 2000 * t.val + p.val; omega
  | ⟨1, _⟩ => show win0_0.index t (1 : Fin 2) * 512 + 1 * k.val = k.val; omega

/-- A resident operand's block is the whole operand. -/
theorem blk1 (c : Dev nD) (t : Fin cfg0.N) : iblk m c 1 t = V m c main_arg1 := by
  obtain ⟨-, -, e0, e1, -⟩ := idx_facts t
  funext y
  show V m c main_arg1 (((cfg0.win 1).blk t).view.emb y) = V m c main_arg1 y
  refine congrArg (V m c main_arg1) ?_
  funext a; apply Fin.ext
  match a with
  | ⟨0, _⟩ => show win0_1.index t (0 : Fin 2) * 512 + 1 * (y 0).val = (y 0).val; omega
  | ⟨1, _⟩ => show win0_1.index t (1 : Fin 2) * 512 + 1 * (y 1).val = (y 1).val; omega
theorem blk2 (c : Dev nD) (t : Fin cfg0.N) : iblk m c 2 t = V m c main_v0 := by
  obtain ⟨-, -, -, -, e0, e1, -⟩ := idx_facts t
  funext y
  show V m c main_v0 (((cfg0.win 2).blk t).view.emb y) = V m c main_v0 y
  refine congrArg (V m c main_v0) ?_
  funext a; apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega
theorem blk3 (c : Dev nD) (t : Fin cfg0.N) : iblk m c 3 t = V m c main_arg3 := by
  obtain ⟨-, -, -, -, -, -, e0, e1, -⟩ := idx_facts t
  funext y
  show V m c main_arg3 (((cfg0.win 3).blk t).view.emb y) = V m c main_arg3 y
  refine congrArg (V m c main_arg3) ?_
  funext a; apply Fin.ext
  match a with
  | ⟨0, _⟩ => show win0_3.index t (0 : Fin 2) * 512 + 1 * (y 0).val = (y 0).val; omega
  | ⟨1, _⟩ => show win0_3.index t (1 : Fin 2) * 40 + 1 * (y 1).val = (y 1).val; omega
theorem blk4 (c : Dev nD) (t : Fin cfg0.N) : iblk m c 4 t = V m c main_v1 := by
  obtain ⟨-, -, -, -, -, -, -, -, e0, e1, -⟩ := idx_facts t
  funext y
  show V m c main_v1 (((cfg0.win 4).blk t).view.emb y) = V m c main_v1 y
  refine congrArg (V m c main_v1) ?_
  funext a; apply Fin.ext
  match a with
  | ⟨0, _⟩ => show win0_4.index t (0 : Fin 2) * 1 + 1 * (y 0).val = (y 0).val; omega
  | ⟨1, _⟩ => show win0_4.index t (1 : Fin 2) * 40 + 1 * (y 1).val = (y 1).val; omega

/-! ## The result array -/

/-- The whole result, as the region's entry contents give it. -/
abbrev G (c : Dev nD) : S100000x40.Idx → EReal :=
  logits (V m c main_arg0) (V m c main_arg1) (V m c main_v0) (V m c main_arg3) (V m c main_v1)

/-- An entry of `logits` of blocks, the first a block of rows and the others whole, is the entry of `logits` of the whole
    arrays on the row the block's row is. -/
theorem logits_blocks {M R K N Q : ℕ} (X : (⟨2, ![M, K]⟩ : Shape).Idx → EReal) (W1 : (⟨2, ![K, N]⟩ : Shape).Idx → EReal)
    (B1 : (⟨2, ![1, N]⟩ : Shape).Idx → EReal) (W2 : (⟨2, ![N, Q]⟩ : Shape).Idx → EReal) (B2 : (⟨2, ![1, Q]⟩ : Shape).Idx → EReal)
    (x0 : (⟨2, ![R, K]⟩ : Shape).Idx → EReal) (x1 : (⟨2, ![K, N]⟩ : Shape).Idx → EReal) (x2 : (⟨2, ![1, N]⟩ : Shape).Idx → EReal)
    (x3 : (⟨2, ![N, Q]⟩ : Shape).Idx → EReal) (x4 : (⟨2, ![1, Q]⟩ : Shape).Idx → EReal) (p : Fin R) (r : Fin M) (q : Fin Q)
    (h0 : ∀ j : Fin K, x0 (ix2 p j) = X (ix2 r j)) (h1 : x1 = W1) (h2 : x2 = B1) (h3 : x3 = W2) (h4 : x4 = B2) :
    logits x0 x1 x2 x3 x4 (ix2 p q) = logits X W1 B1 W2 B2 (ix2 r q) := by
  subst h1 h2 h3 h4
  exact logits_row X x1 x2 x3 x4 x0 p r q h0

/-- WHAT POINT `t` WRITES BACK is block `t` of the whole result. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after5]
  unfold outBlock
  rw [View.canon_unit_zero hz]
  simp only [View.ld_unit_zero (S := S2000x512) hz, View.ld_unit_zero (S := S512x512) hz, View.ld_unit_zero (S := S1x512) hz,
    View.ld_unit_zero (S := S512x40) hz, View.ld_unit_zero (S := S1x40) hz]
  rw [pay_eq]
  have ht : t.val < 50 := lt_of_lt_of_eq t.isLt N_0
  obtain ⟨-, -, -, -, -, -, -, -, -, -, e50, e51⟩ := idx_facts t
  funext j
  obtain ⟨p, q, rfl⟩ : ∃ (p : Fin 2000) (q : Fin 40), j = ix2 p q := ⟨j 0, j 1, eq_ix2 j⟩
  have hr : 2000 * t.val + p.val < 100000 := by have := p.isLt; omega
  have hemb : ((cfg0.win 5).blk t).view.emb (ix2 p q) = ix2 (⟨2000 * t.val + p.val, hr⟩ : Fin 100000) q := by
    funext a; apply Fin.ext
    match a with
    | ⟨0, _⟩ => show win0_5.index t (0 : Fin 2) * 2000 + 1 * p.val = 2000 * t.val + p.val; omega
    | ⟨1, _⟩ => show win0_5.index t (1 : Fin 2) * 40 + 1 * q.val = q.val; omega
  show logits (iblk m c 0 t) (iblk m c 1 t) (iblk m c 2 t) (iblk m c 3 t) (iblk m c 4 t) (ix2 p q)
    = G m c (((cfg0.win 5).blk t).view.emb (ix2 p q))
  rw [hemb]
  exact logits_blocks (V m c main_arg0) (V m c main_arg1) (V m c main_v0) (V m c main_arg3) (V m c main_v1)
    (iblk m c 0 t) (iblk m c 1 t) (iblk m c 2 t) (iblk m c 3 t) (iblk m c 4 t) p ⟨2000 * t.val + p.val, hr⟩ q
    (fun k => xblk m c t p k hr) (blk1 m c t) (blk2 m c t) (blk3 m c t) (blk4 m c t)

/-- An index of the result is in point `t`'s block iff each coordinate is in the block's range on its axis. -/
theorem mem_blk (t : Fin cfg0.N) (i : S100000x40.Idx) :
    i ∈ ((cfg0.win 5).blk t).view.set ↔ ∀ a : Fin 2, win0_5.index t a * S2000x40.size a ≤ (i a).val ∧ (i a).val < win0_5.index t a * S2000x40.size a + S2000x40.size a := by
  show i ∈ ((View.whole main_v2).slice (win0_5.rect t)).set ↔ _
  rw [View.set_slice_whole, Rect.mem_set_unit]
  exact Iff.rfl

/-- Every index of the result lies in the block of the point its row's block number names, which is written back. -/
theorem cover (i : S100000x40.Idx) : ∃ t : Fin cfg0.N, (cfg0.win 5).flush t = true ∧ i ∈ ((cfg0.win 5).blk t).view.set := by
  have hi0 : (i 0).val < 100000 := (i 0).isLt
  have hi1 : (i 1).val < 40 := (i 1).isLt
  have hN : (i 0).val / 2000 < cfg0.N := by rw [show cfg0.N = 50 from N_0]; omega
  obtain ⟨-, -, -, -, -, -, -, -, -, -, e50, e51⟩ := idx_facts ⟨(i 0).val / 2000, hN⟩
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, hN⟩ (1 : Fin 2) * 40 ≤ (i 1).val ∧ (i 1).val < win0_5.index ⟨(i 0).val / 2000, hN⟩ (1 : Fin 2) * 40 + 40
    rw [e51]; omega

/-- THE RESULT ARRAY after the region: `logits` of the region's entry contents. -/
theorem final (c : Dev nD) : (dats m 0 c).arrAt 5 cfg0.N = G m c :=
  (dats m 0 c).arrAt_eq_of_cover 5 (G m c) (fun t _ => flushed_eq m c t) cover

/-! ## The entry contents from the launch contents -/

/-- Each reshaped bias vector is the vector laid out as one row. -/
theorem V_v0 (c : Dev nD) : (V m c main_v0 : S1x512.Idx → EReal) = rowOf (m ((c : Thread nD τ).loc main_arg2)) := by
  have e : (V m c main_v0 : S1x512.Idx → EReal) = shapeCast S1x512 (m ((c : Thread nD τ).loc main_arg2)) shapeCasts_S512_S1x512 := by
    show StableHlo.after hostOps0 (fun b => m (c, b)) (Proc.devRef .tc main_v0) = _
    after_results; rfl
  rw [e]; exact cast_row_eq_rowOf _ _
theorem V_v1 (c : Dev nD) : (V m c main_v1 : S1x40.Idx → EReal) = rowOf (m ((c : Thread nD τ).loc main_arg4)) := by
  have e : (V m c main_v1 : S1x40.Idx → EReal) = shapeCast S1x40 (m ((c : Thread nD τ).loc main_arg4)) shapeCasts_S40_S1x40 := by
    show StableHlo.after hostOps0 (fun b => m (c, b)) (Proc.devRef .tc main_v1) = _
    after_results; rfl
  rw [e]; exact cast_row_eq_rowOf _ _

/-- The result of the two dense layers, from the launch contents of @main's first five arguments. -/
def zOf (a0 : S100000x512.Idx → EReal) (a1 : S512x512.Idx → EReal) (a2 : S512.Idx → EReal) (a3 : S512x40.Idx → EReal)
    (a4 : S40.Idx → EReal) : S100000x40.Idx → EReal :=
  logits a0 a1 (rowOf a2) a3 (rowOf a4)

/-- The region's result array, from the launch contents. -/
theorem final_launch (c : Dev nD) :
    (dats m 0 c).arrAt 5 cfg0.N = zOf (m ((c : Thread nD τ).loc main_arg0)) (m ((c : Thread nD τ).loc main_arg1))
      (m ((c : Thread nD τ).loc main_arg2)) (m ((c : Thread nD τ).loc main_arg3)) (m ((c : Thread nD τ).loc main_arg4)) := by
  rw [final]
  unfold G zOf
  rw [V_arg m c main_arg0 (by decide), V_arg m c main_arg1 (by decide), V_arg m c main_arg3 (by decide), V_v0, V_v1]

end Cert.KernelIdeal.Val

end
-- ==== Proof.TailDefs.lean ====
/-
  The index lists both programs build from the edge list before anything else: the targets (row 0 of the 2 × 1600000 edge
  list) followed by the 100000 self loops 0, 1, …, and the sources (row 1) followed by the same self loops.
-/
import proofs.«167775_j9320079033153_1_alg».proof.Proof.Gen.KernelIdeal
import Idealize.ShloMosaic.PureOps.Ideal

noncomputable section

namespace Cert.Tail

open Cert.KernelIdeal Cert.KernelIdeal.Gen Idealize.ShloMosaic Idealize.SL.Sem

/-- Two integer vectors end to end: 1600000 entries, then 100000. -/
def join (a : (⟨S1600000, .i32⟩ : BufTy).Contents (Elt Ideal)) (b : (⟨S100000, .i32⟩ : BufTy).Contents (Elt Ideal)) :
    (⟨S1700000, .i32⟩ : BufTy).Contents (Elt Ideal) :=
  concatenate S1700000 0 [⟨S1600000, a⟩, ⟨S100000, b⟩] concatenates_S1600000_S100000_S1700000_d0

/-- Joining equal pieces gives equal vectors. -/
theorem join_congr {a a' : (⟨S1600000, .i32⟩ : BufTy).Contents (Elt Ideal)} {b b' : (⟨S100000, .i32⟩ : BufTy).Contents (Elt Ideal)}
    (ha : a = a') (hb : b = b') :
    concatenate S1700000 0 [⟨S1600000, a⟩, ⟨S100000, b⟩] concatenates_S1600000_S100000_S1700000_d0 = join a' b' := by
  subst ha hb; rfl

/-- The edges' targets followed by the self loops. -/
def targets (e : (⟨S2x1600000, .i32⟩ : BufTy).Contents (Elt Ideal)) : (⟨S1700000, .i32⟩ : BufTy).Contents (Elt Ideal) :=
  join (shapeCast S1600000 (extractStridedSlice S1x1600000 ![0, 0] e slices_S2x1600000_S1x1600000_0_0) shapeCasts_S1x1600000_S1600000)
    (iotaInDim S100000 32 0)

/-- The edges' sources followed by the self loops. -/
def sources (e : (⟨S2x1600000, .i32⟩ : BufTy).Contents (Elt Ideal)) : (⟨S1700000, .i32⟩ : BufTy).Contents (Elt Ideal) :=
  join (shapeCast S1600000 (extractStridedSlice S1x1600000 ![1, 0] e slices_S2x1600000_S1x1600000_1_0) shapeCasts_S1x1600000_S1600000)
    (iotaInDim S100000 32 0)

end Cert.Tail

end
-- ==== Proof.KernelTail.lean ====
/-
  The idealized kernel's final result. After the region, @main builds the two index lists from the edge list (seven
  lines), then runs the 257 lines that any function `T` with the kernel's folding property (TailShared) summarises. So the
  result buffer ends at `T (targets e) (sources e) z` with `e` the edge list as launched and `z` the region's result array,
  which IdealValue gives as `logits` of the launch contents.
-/
import proofs.«167775_j9320079033153_1_alg».proof.Proof.IdealValue
import proofs.«167775_j9320079033153_1_alg».proof.Proof.TailDefs
import Idealize.ShloMosaic.Lib.StableHlo.Run

set_option maxRecDepth 16384

noncomputable section

namespace Cert.KernelIdeal.Val

open Cert.KernelIdeal Cert.KernelIdeal.Gen Cert.KernelIdeal.Frame Cert.Tail
open Idealize.ShloMosaic Idealize.ShloMosaic.TcCoe Idealize.SL Idealize.SL.Sem

variable (m : (ℓ : Loc nD τ sig) → Buf (Elt Ideal) ℓ) (ρ : Dev nD → PrngReg)

/-! ## The seven lines that build the index lists -/

/-- They leave the targets followed by the self loops in the first list's buffer, -/
theorem pre_targets (W : Valuation τ sig (Elt Ideal)) :
    StableHlo.after (List.take 7 (hostOps1 (F := Ideal))) W (Proc.devRef .tc main_v6) = targets (W (Proc.devRef .tc main_arg5)) := by
  simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
  unfold targets
  refine join_congr ?_ ?_
  · simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
    rfl
  · simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']

/-- the sources followed by the self loops in the second's, -/
theorem pre_sources (W : Valuation τ sig (Elt Ideal)) :
    StableHlo.after (List.take 7 (hostOps1 (F := Ideal))) W (Proc.devRef .tc main_v9) = sources (W (Proc.devRef .tc main_arg5)) := by
  simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
  unfold sources
  refine join_congr ?_ ?_
  · simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
    rfl
  · simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']

/-- and do not write the region's result. -/
theorem pre_keeps (W : Valuation τ sig (Elt Ideal)) :
    StableHlo.after (List.take 7 (hostOps1 (F := Ideal))) W (Proc.devRef .tc main_v2) = W (Proc.devRef .tc main_v2) :=
  StableHlo.after_of_forall_not_mem _ _ fun op hop =>
    (List.forall_iff_forall_mem.mp hostOps1_keeps) op (List.mem_of_mem_take hop) main_v2 (by decide)

/-! ## The result buffer after the run -/

/-- The result buffer's contents after the later lines, for any `T` that summarises the last 257 of them. -/
theorem result_eq
    (T : (⟨S1700000, .i32⟩ : BufTy).Contents (Elt Ideal) → (⟨S1700000, .i32⟩ : BufTy).Contents (Elt Ideal)
      → (⟨S100000x40, .f32⟩ : BufTy).Contents (Elt Ideal) → (⟨S100000x40, .f32⟩ : BufTy).Contents (Elt Ideal))
    (hT : ∀ W : Valuation τ sig (Elt Ideal),
      StableHlo.after (hostOps1_2 (F := Ideal)) (StableHlo.after (hostOps1_1 (F := Ideal)) (StableHlo.after (List.drop 7 (hostOps1 (F := Ideal))) W))
          (Proc.devRef .tc main_v205)
        = T (W (Proc.devRef .tc main_v6)) (W (Proc.devRef .tc main_v9)) (W (Proc.devRef .tc main_v2)))
    (c : Dev nD) :
    Pipeline.afterTail₀ cfgs (dats m) 0 (V0 m) tailOps c main_v205
      = T (targets (m ((c : Thread nD τ).loc main_arg5))) (sources (m ((c : Thread nD τ).loc main_arg5)))
          (zOf (m ((c : Thread nD τ).loc main_arg0)) (m ((c : Thread nD τ).loc main_arg1)) (m ((c : Thread nD τ).loc main_arg2))
            (m ((c : Thread nD τ).loc main_arg3)) (m ((c : Thread nD τ).loc main_arg4))) := by
  have hsplit : ∀ W : Valuation τ sig (Elt Ideal), StableHlo.after (hostOps1 (F := Ideal)) W
      = StableHlo.after (List.drop 7 (hostOps1 (F := Ideal))) (StableHlo.after (List.take 7 (hostOps1 (F := Ideal))) W) := fun W => by
    rw [← StableHlo.after_append, List.take_append_drop]
  have e5 : Pipeline.withArrays spec0 c (V0 m c) (fun w => (dats m 0 c).arrAt w cfg0.N) (Proc.devRef .tc main_arg5)
      = m ((c : Thread nD τ).loc main_arg5) :=
    (Pipeline.withArrays_of_ne spec0 c _ _ main_arg5 (by decide)).trans (V_arg m c main_arg5 (by decide))
  have e2 : Pipeline.withArrays spec0 c (V0 m c) (fun w => (dats m 0 c).arrAt w cfg0.N) (Proc.devRef .tc main_v2)
      = (dats m 0 c).arrAt 5 cfg0.N :=
    Pipeline.withArrays_arr spec0 launch0.win.arr_inj c _ _ 5
  unfold Pipeline.afterTail₀
  simp only [tailOps, List.flatten_cons, List.flatten_nil, List.append_nil]
  rw [StableHlo.after_append, StableHlo.after_append, hsplit, hT, pre_targets, pre_sources, pre_keeps, e5, e2, final_launch]

/-- THE RUN of the idealized kernel: every weakly fair execution terminates with the result at `T` of the index lists and
    the dense layers' value, and the arguments unchanged. -/
theorem run
    (T : (⟨S1700000, .i32⟩ : BufTy).Contents (Elt Ideal) → (⟨S1700000, .i32⟩ : BufTy).Contents (Elt Ideal)
      → (⟨S100000x40, .f32⟩ : BufTy).Contents (Elt Ideal) → (⟨S100000x40, .f32⟩ : BufTy).Contents (Elt Ideal))
    (hT : ∀ W : Valuation τ sig (Elt Ideal),
      StableHlo.after (hostOps1_2 (F := Ideal)) (StableHlo.after (hostOps1_1 (F := Ideal)) (StableHlo.after (List.drop 7 (hostOps1 (F := Ideal))) W))
          (Proc.devRef .tc main_v205)
        = T (W (Proc.devRef .tc main_v6)) (W (Proc.devRef .tc main_v9)) (W (Proc.devRef .tc main_v2))) :
    θ_run defs (onTc (τ := τ) (main (F := Ideal))) ⟨m, fun _ => 0, ρ⟩ fun r => ∀ c : Dev nD,
      r.2.mem ((c.tc : Thread nD τ).loc main_v205)
          = T (targets (m ((c.tc : Thread nD τ).loc main_arg5))) (sources (m ((c.tc : Thread nD τ).loc main_arg5)))
              (zOf (m ((c.tc : Thread nD τ).loc main_arg0)) (m ((c.tc : Thread nD τ).loc main_arg1)) (m ((c.tc : Thread nD τ).loc main_arg2))
                (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v205 (Pipeline.mem_restRefs_of main_v205 (by decide) (by decide))).trans (result_eq m T hT c),
      ((h c).1 0).trans (((dats m 0 c).arrAt_in 0 rfl _).trans ((A_eq m c 0).trans (V_arg m c main_arg0 (by decide)))),
      ((h c).1 1).trans (((dats m 0 c).arrAt_in 1 rfl _).trans ((A_eq m c 1).trans (V_arg m c main_arg1 (by decide)))),
      ((h c).2 main_arg2 (Pipeline.mem_restRefs_of main_arg2 (by decide) (by decide))).trans (tail_arg m c main_arg2 (by decide)),
      ((h c).1 3).trans (((dats m 0 c).arrAt_in 3 rfl _).trans ((A_eq m c 3).trans (V_arg m c main_arg3 (by decide)))),
      ((h c).2 main_arg4 (Pipeline.mem_restRefs_of main_arg4 (by decide) (by decide))).trans (tail_arg m c main_arg4 (by decide)),
      ((h c).2 main_arg5 (Pipeline.mem_restRefs_of main_arg5 (by decide) (by decide))).trans (tail_arg m c main_arg5 (by decide))⟩)
    (run_main m ρ)

end Cert.KernelIdeal.Val

end
-- ==== Proof.RefValue.lean ====
/-
  The idealized reference's run, read. Its 275 host operations are: eleven that compute the two dense layers (two
  `dot_general`s, each followed by its bias vector broadcast to a row and down the rows, a maximum against zero between),
  seven that build the two index lists from the edge list, and the 257 that any function `T` with the reference's folding
  property (TailShared) summarises. So the result buffer ends at `T (targets e) (sources e) z` with `e` the edge list and
  `z` = `logits` of the first five arguments (LibTwoLayer, fact (2)); and no operation writes an argument.
-/
import proofs.«167775_j9320079033153_1_alg».proof.Proof.RefRunPatched
import proofs.«167775_j9320079033153_1_alg».proof.Proof.TailDefs
import proofs.«167775_j9320079033153_1_alg».proof.Proof.LibTwoLayer
import Idealize.ShloMosaic.Lib.StableHlo.Run

set_option maxRecDepth 16384

noncomputable section

namespace Cert.ReferenceIdeal.RefValue

open Cert.ReferenceIdeal Cert.ReferenceIdeal.Gen Cert.ReferenceIdeal.ValueP Cert.Tail Cert.Mlp Cert.Gcn
open Idealize.ShloMosaic Idealize.ShloMosaic.TcCoe Idealize.SL Idealize.SL.Sem

/-! ## No operation writes an argument -/

set_option maxHeartbeats 40000000 in
theorem ops_keeps : (ops : List (HloOp τ sig (Elt Ideal))).Forall fun op =>
    ∀ b ∈ [main_arg0, main_arg1, main_arg2, main_arg3, main_arg4, main_arg5], Proc.devRef (τ := τ) .tc b ∉ op.writes := by
  simp only [List.Forall, List.forall_mem_cons, List.not_mem_nil, false_imp_iff, implies_true, and_true,
    StableHlo.TRef.nullary, StableHlo.TRef.unary, StableHlo.TRef.binary, StableHlo.TRef.ternary,
    StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- Every argument keeps its contents through the whole program. -/
theorem kept (W : Valuation τ sig (Elt Ideal)) (b : Ref sig .tc)
    (hb : b ∈ [main_arg0, main_arg1, main_arg2, main_arg3, main_arg4, main_arg5]) :
    StableHlo.after (ops (F := Ideal)) W (Proc.devRef .tc b) = W (Proc.devRef .tc b) :=
  StableHlo.after_of_forall_not_mem _ _ fun op hop => (List.forall_iff_forall_mem.mp ops_keeps) op hop b hb

/-! ## The first eighteen operations -/

/-- They leave the targets followed by the self loops in the first list's buffer, -/
theorem pre_targets (W : Valuation τ sig (Elt Ideal)) :
    StableHlo.after (List.take 18 (ops (F := Ideal))) W (Proc.devRef .tc main_v12) = targets (W (Proc.devRef .tc main_arg5)) := by
  simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
  unfold targets
  refine join_congr ?_ ?_
  · simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
    rfl
  · simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']

/-- the sources followed by the self loops in the second's, -/
theorem pre_sources (W : Valuation τ sig (Elt Ideal)) :
    StableHlo.after (List.take 18 (ops (F := Ideal))) W (Proc.devRef .tc main_v15) = sources (W (Proc.devRef .tc main_arg5)) := by
  simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
  unfold sources
  refine join_congr ?_ ?_
  · simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
    rfl
  · simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']

/-- and the two dense layers' value in theirs. -/
theorem pre_logits (W : Valuation τ sig (Elt Ideal)) :
    StableHlo.after (List.take 18 (ops (F := Ideal))) W (Proc.devRef .tc main_v8)
      = logits (W (Proc.devRef .tc main_arg0)) (W (Proc.devRef .tc main_arg1)) (rowOf (W (Proc.devRef .tc main_arg2)))
          (W (Proc.devRef .tc main_arg3)) (rowOf (W (Proc.devRef .tc main_arg4))) := by
  simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
  refine Eq.trans ?_ (host_logits dot_S100000x512_S512x512_S100000x512_1_0_0_1_n_n.wf dot_S100000x512_S512x40_S100000x40_1_0_0_1_n_n.wf
    bcast_S512_S1x512_1 bcast_S1x512_S100000x512_0_1 bcast_S_S100000x512 bcast_S40_S1x40_1 bcast_S1x40_S100000x40_0_1
    (W (Proc.devRef .tc main_arg0)) (W (Proc.devRef .tc main_arg1)) (W (Proc.devRef .tc main_arg2))
    (W (Proc.devRef .tc main_arg3)) (W (Proc.devRef .tc main_arg4)))
  rfl

/-! ## The result -/

/-- The result buffer's contents after the program, for any `T` that summarises the last 257 operations. -/
theorem result_eq
    (T : (⟨Cert.KernelIdeal.S1700000, .i32⟩ : BufTy).Contents (Elt Ideal) → (⟨Cert.KernelIdeal.S1700000, .i32⟩ : BufTy).Contents (Elt Ideal)
      → (⟨Cert.KernelIdeal.S100000x40, .f32⟩ : BufTy).Contents (Elt Ideal) → (⟨Cert.KernelIdeal.S100000x40, .f32⟩ : BufTy).Contents (Elt Ideal))
    (hT : ∀ W : Valuation τ sig (Elt Ideal),
      StableHlo.after (List.drop 18 (ops (F := Ideal))) W (Proc.devRef .tc main_v211)
        = T (W (Proc.devRef .tc main_v12)) (W (Proc.devRef .tc main_v15)) (W (Proc.devRef .tc main_v8)))
    (W : Valuation τ sig (Elt Ideal)) :
    StableHlo.after (ops (F := Ideal)) W (Proc.devRef .tc main_v211)
      = T (targets (W (Proc.devRef .tc main_arg5))) (sources (W (Proc.devRef .tc main_arg5)))
          (logits (W (Proc.devRef .tc main_arg0)) (W (Proc.devRef .tc main_arg1)) (rowOf (W (Proc.devRef .tc main_arg2)))
            (W (Proc.devRef .tc main_arg3)) (rowOf (W (Proc.devRef .tc main_arg4)))) := by
  have hsplit : StableHlo.after (ops (F := Ideal)) W
      = StableHlo.after (List.drop 18 (ops (F := Ideal))) (StableHlo.after (List.take 18 (ops (F := Ideal))) W) := by
    rw [← StableHlo.after_append, List.take_append_drop]
  rw [hsplit, hT, pre_targets, pre_sources, pre_logits]

/-- THE RUN of the idealized reference: every weakly fair execution terminates with the result at `T` of the index lists
    and the dense layers' value, and the arguments unchanged. -/
theorem run
    (T : (⟨Cert.KernelIdeal.S1700000, .i32⟩ : BufTy).Contents (Elt Ideal) → (⟨Cert.KernelIdeal.S1700000, .i32⟩ : BufTy).Contents (Elt Ideal)
      → (⟨Cert.KernelIdeal.S100000x40, .f32⟩ : BufTy).Contents (Elt Ideal) → (⟨Cert.KernelIdeal.S100000x40, .f32⟩ : BufTy).Contents (Elt Ideal))
    (hT : ∀ W : Valuation τ sig (Elt Ideal),
      StableHlo.after (List.drop 18 (ops (F := Ideal))) W (Proc.devRef .tc main_v211)
        = T (W (Proc.devRef .tc main_v12)) (W (Proc.devRef .tc main_v15)) (W (Proc.devRef .tc main_v8)))
    (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v211)
          = T (targets (m ((c.tc : Thread nD τ).loc main_arg5))) (sources (m ((c.tc : Thread nD τ).loc main_arg5)))
              (logits (m ((c.tc : Thread nD τ).loc main_arg0)) (m ((c.tc : Thread nD τ).loc main_arg1)) (rowOf (m ((c.tc : Thread nD τ).loc main_arg2)))
                (m ((c.tc : Thread nD τ).loc main_arg3)) (rowOf (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v211).trans (result_eq T hT _),
      (h c main_arg0).trans (kept _ main_arg0 (by decide)),
      (h c main_arg1).trans (kept _ main_arg1 (by decide)),
      (h c main_arg2).trans (kept _ main_arg2 (by decide)),
      (h c main_arg3).trans (kept _ main_arg3 (by decide)),
      (h c main_arg4).trans (kept _ main_arg4 (by decide)),
      (h c main_arg5).trans (kept _ main_arg5 (by decide))⟩)
    (run_raw (F := Ideal) m ρ)

/-- The reference's frame: it runs to the end without a fault and its six arguments end as launched. -/
theorem frame (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      (h c main_arg0).trans (kept _ main_arg0 (by decide)),
      (h c main_arg1).trans (kept _ main_arg1 (by decide)),
      (h c main_arg2).trans (kept _ main_arg2 (by decide)),
      (h c main_arg3).trans (kept _ main_arg3 (by decide)),
      (h c main_arg4).trans (kept _ main_arg4 (by decide)),
      (h c main_arg5).trans (kept _ main_arg5 (by decide))⟩)
    (run_raw (F := Ideal) m ρ)

end Cert.ReferenceIdeal.RefValue

end
-- ==== Proof.TailShared.lean ====
/-
  After the two index lists are built, both programs run the SAME 257 host operations on them and on the dense layers'
  result z: the degree of every node (a scatter-add of ones over the targets), its inverse square root where positive,
  the per-edge weight (the product of the two endpoints' factors), and then ten propagation steps
      z ← 0.9 · scatter_add(z[sources] · weight, targets) + 0.1 · z₀.
  Nothing here opens those operations. Each program's lines are folded, in one pass, into ONE function of the three
  values they start from (targets, sources, z); the statement is that it is the same function T for both programs, so
  that equal inputs give equal results. The function is found by unification from the kernel's lines and then met by the
  reference's, whose records and side-condition proofs differ from the kernel's only in name.
-/
import proofs.«167775_j9320079033153_1_alg».proof.Proof.Gen.KernelIdeal.Launch
import proofs.«167775_j9320079033153_1_alg».proof.Proof.RefRunPatched
import Idealize.ShloMosaic.Lib.StableHlo.Run
import Idealize.ShloMosaic.PureOps.Ideal

noncomputable section

namespace Cert.Tail

open Idealize.ShloMosaic Idealize.ShloMosaic.TcCoe Idealize.SL.Sem

set_option maxRecDepth 16384 in
set_option maxHeartbeats 800000000 in
/-- ONE function `T` gives both programs' final result from the index lists and the dense layers' result. -/
theorem shared : ∃ T : (⟨Cert.KernelIdeal.S1700000, .i32⟩ : BufTy).Contents (Elt Ideal) → (⟨Cert.KernelIdeal.S1700000, .i32⟩ : BufTy).Contents (Elt Ideal)
      → (⟨Cert.KernelIdeal.S100000x40, .f32⟩ : BufTy).Contents (Elt Ideal) → (⟨Cert.KernelIdeal.S100000x40, .f32⟩ : BufTy).Contents (Elt Ideal),
    (∀ W : Valuation Cert.KernelIdeal.τ Cert.KernelIdeal.sig (Elt Ideal),
      StableHlo.after (Cert.KernelIdeal.Gen.hostOps1_2 (F := Ideal)) (StableHlo.after (Cert.KernelIdeal.Gen.hostOps1_1 (F := Ideal))
          (StableHlo.after (List.drop 7 (Cert.KernelIdeal.Gen.hostOps1 (F := Ideal))) W)) (Proc.devRef .tc Cert.KernelIdeal.main_v205)
        = T (W (Proc.devRef .tc Cert.KernelIdeal.main_v6)) (W (Proc.devRef .tc Cert.KernelIdeal.main_v9)) (W (Proc.devRef .tc Cert.KernelIdeal.main_v2)))
    ∧ (∀ W : Valuation Cert.ReferenceIdeal.τ Cert.ReferenceIdeal.sig (Elt Ideal),
      StableHlo.after (List.drop 18 (Cert.ReferenceIdeal.ValueP.ops (F := Ideal))) W (Proc.devRef .tc Cert.ReferenceIdeal.main_v211)
        = T (W (Proc.devRef .tc Cert.ReferenceIdeal.main_v12)) (W (Proc.devRef .tc Cert.ReferenceIdeal.main_v15)) (W (Proc.devRef .tc Cert.ReferenceIdeal.main_v8))) := by
  refine ⟨?T, fun W => ?hK, fun W => ?hR⟩
  case hK =>
    simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
    generalize W (Proc.devRef .tc Cert.KernelIdeal.main_v6) = r
    generalize W (Proc.devRef .tc Cert.KernelIdeal.main_v9) = s
    generalize W (Proc.devRef .tc Cert.KernelIdeal.main_v2) = z
    exact rfl
  case hR =>
    simp (disch := decide) only [List.drop_succ_cons, List.drop_zero, List.take_succ_cons, List.take_zero, StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
    generalize W (Proc.devRef .tc Cert.ReferenceIdeal.main_v12) = r
    generalize W (Proc.devRef .tc Cert.ReferenceIdeal.main_v15) = s
    generalize W (Proc.devRef .tc Cert.ReferenceIdeal.main_v8) = z
    exact rfl

end Cert.Tail

end
-- ==== Proof.lean ====
/-
  The certificate of one kernel against its reference: a two-layer perceptron relu(x·W1 + b1)·W2 + b2 over 100000 rows
  followed by ten steps of normalised propagation over a graph of 1600000 edges plus self loops.

  The kernel computes the perceptron in a 50-point grid of 2000-row blocks on the matrix unit (operands narrowed to a
  shorter float format on the way in, which is the identity on the extended reals), the reference as two whole matrix
  products on the host; both then run the same host operations on the perceptron's result and the edge list.

  * The three frames: each program runs to the end, faults nowhere and leaves its six arguments as launched — the two
    kernel programs by the region's launch around 2 + 264 host lines (BitsFrame, IdealFrame: the body's one store over
    the whole output block, the later lines touching no array of the region), the reference by its straight-line run.
  * `preserves`: the idealization rewrote nothing.
  * `algebraic`: at the extended reals the region's result array is `logits` of the arguments row by row (a row of a
    block's product depends on that row of x only, and the 50 blocks cover the array), the reference's two layers are the
    same array, and the later lines are ONE function of that array and of the two index lists built from the edge
    list, the same function for both programs (TailShared) — so the results are equal without opening the propagation.
-/
import proofs.«167775_j9320079033153_1_alg».proof.Defs
import proofs.«167775_j9320079033153_1_alg».proof.Proof.Gen.Kernel
import proofs.«167775_j9320079033153_1_alg».proof.Proof.Gen.KernelIdeal
import proofs.«167775_j9320079033153_1_alg».proof.Proof.Gen.ReferenceIdeal
import proofs.«167775_j9320079033153_1_alg».proof.Proof.Gen.Pre_finite_inputs
import proofs.«167775_j9320079033153_1_alg».proof.Proof.BitsFrame
import proofs.«167775_j9320079033153_1_alg».proof.Proof.KernelTail
import proofs.«167775_j9320079033153_1_alg».proof.Proof.RefValue
import proofs.«167775_j9320079033153_1_alg».proof.Proof.TailShared
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame (F := Bits) m ρ

theorem frame_ki : Cert.frame_KernelIdeal := fun m ρ _ => Cert.KernelIdeal.Frame.frame (F := Ideal) m ρ

theorem frame_ri : Cert.frame_ReferenceIdeal := fun m ρ _ => Cert.ReferenceIdeal.RefValue.frame m ρ

theorem preserves : Cert.preserves_Kernel_KernelIdeal := trivial

/-- From memories agreeing on the arguments both idealized programs end with the same result: the shared later lines
    applied to equal index lists and to the same two-layer value. -/
theorem algebraic : Cert.algebraic_KernelIdeal_ReferenceIdeal := by
  intro m ρ m' ρ' _ hagree
  obtain ⟨T, hK, hR⟩ := Cert.Tail.shared
  refine ⟨_, Cert.KernelIdeal.Val.run m ρ T hK, ?_⟩
  refine (θ_run Cert.ReferenceIdeal.defs _ _).mono (fun r h c => ⟨(h c).1.trans ?_, (h c).2⟩)
    (Cert.ReferenceIdeal.RefValue.run T hR m' ρ')
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
